-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x768 : Shape := ⟨4, ![8, 32, 32, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S8x32x32x768 : S_.BroadcastsInDim S8x32x32x768 (![] : Fin 0 → Fin S8x32x32x768.rank)
  reducesTo_S8x32x32x768_S_d0_1_2_3 : S8x32x32x768.ReducesTo [0, 1, 2, 3] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x32x32x768 .f32) (main_arg1 : FVec F S2304x768 .f32) (main_arg2 : FVec F S2304 .f32) (main_arg3 : FVec F S768x768 .f32) (main_arg4 : FVec F S768 .f32) : IVec S_ 1 :=
  let main_v0 : FVec F S8x32x32x768 .f32 := Host.absf main_arg0
  let main_cst : FVec F S_ .f32 := constant S_ .f32 0x7F800000#32
  let main_v1 : FVec F S8x32x32x768 .f32 := broadcastInDim S8x32x32x768 ![] bcast_S_S8x32x32x768 main_cst
  let main_v2 : IVec S8x32x32x768 1 := cmpf .olt main_v0 main_v1
  let main_c : IVec S_ 1 := constantI S_ 1 1#1
  let main_v3 : IVec S_ 1 := (fun x v => Host.reduce IntOp.andi x v reducesTo_S8x32x32x768_S_d0_1_2_3 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x32x32x768 : Shape := ⟨4, ![8, 32, 32, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S8192x768 : Shape := ⟨2, ![8192, 768]⟩
abbrev S768x2304 : Shape := ⟨2, ![768, 2304]⟩
abbrev S1x2304 : Shape := ⟨2, ![1, 2304]⟩
abbrev S8192x2304 : Shape := ⟨2, ![8192, 2304]⟩
abbrev S2048x768 : Shape := ⟨2, ![2048, 768]⟩
abbrev S2048x2304 : Shape := ⟨2, ![2048, 2304]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩

abbrev nBuf : Space → Nat
  | .hbm => 16
  | .vmem => 20
  | .smem => 0
  | _ => 0

abbrev bufTy : (tb : Table) → Fin (tcTables nBuf tb) → BufTy
  | .hbm, ⟨0, _⟩ => ⟨S8x32x32x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8192x768, .f32⟩
  | .hbm, ⟨6, _⟩ => ⟨S768x2304, .f32⟩
  | .hbm, ⟨7, _⟩ => ⟨S768x2304, .bf16⟩
  | .hbm, ⟨8, _⟩ => ⟨S768x768, .f32⟩
  | .hbm, ⟨9, _⟩ => ⟨S768x768, .bf16⟩
  | .hbm, ⟨10, _⟩ => ⟨S1x2304, .f32⟩
  | .hbm, ⟨11, _⟩ => ⟨S8192x2304, .bf16⟩
  | .hbm, ⟨12, _⟩ => ⟨S8192x768, .bf16⟩
  | .hbm, ⟨13, _⟩ => ⟨S1x768, .f32⟩
  | .hbm, ⟨14, _⟩ => ⟨S8192x768, .f32⟩
  | .hbm, ⟨15, _⟩ => ⟨S8x32x32x768, .f32⟩
  | .local _ .vmem, ⟨0, _⟩ => ⟨S2048x768, .f32⟩
  | .local _ .vmem, ⟨1, _⟩ => ⟨S2048x768, .f32⟩
  | .local _ .vmem, ⟨2, _⟩ => ⟨S768x2304, .bf16⟩
  | .local _ .vmem, ⟨3, _⟩ => ⟨S1x2304, .f32⟩
  | .local _ .vmem, ⟨4, _⟩ => ⟨S2048x2304, .bf16⟩
  | .local _ .vmem, ⟨5, _⟩ => ⟨S2048x2304, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S2048x768, .bf16⟩
  | .local _ .vmem, ⟨15, _⟩ => ⟨S2048x768, .bf16⟩
  | .local _ .vmem, ⟨16, _⟩ => ⟨S768x768, .bf16⟩
  | .local _ .vmem, ⟨17, _⟩ => ⟨S1x768, .f32⟩
  | .local _ .vmem, ⟨18, _⟩ => ⟨S2048x768, .f32⟩
  | .local _ .vmem, ⟨19, _⟩ => ⟨S2048x768, .f32⟩
  | _, _ => ⟨S8x32x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x32x32x768_S8192x768 : S8x32x32x768.ShapeCasts S8192x768
  transposes_S2304x768_S768x2304_1_0 : S2304x768.Transposes [1, 0] S768x2304
  bitsLt_bf16_f32 : FTy.bits .bf16 < FTy.bits .f32
  transposes_S768x768_S768x768_1_0 : S768x768.Transposes [1, 0] S768x768
  shapeCasts_S2304_S1x2304 : S2304.ShapeCasts S1x2304
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S2048x2304 : S1x2304.Broadcasts S2048x2304
  inb_S2048x2304_S2048x2304_0_0 : ∀ a, (![0, 0] : Fin 2 → Nat) a + S2048x2304.size a ≤ S2048x2304.size a
  h_S2048x2304 : 0 < S2048x2304.numel
  packedbf16_S2048x2304_S2048x2304_0_0 : (Rect.unit (s := S2048x2304) ![0, 0] S2048x2304.size inb_S2048x2304_S2048x2304_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  packedbf16_S1024x128_S1024x128_0_0 : (Rect.unit (s := S1024x128) ![0, 0] S1024x128.size inb_S1024x128_S1024x128_0_0).PackedRows (EltTy.packing .bf16)
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  shapeCasts_S8192x768_S8x32x32x768 : S8192x768.ShapeCasts S8x32x32x768
  dot_S2048x768_S768x2304_S2048x2304_1_0_0_1_n_n_wf : DotDims.WF S2048x768 S768x2304 S2048x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2304.size a ≤ S8192x2304.size a
  hwx0_3 : ∀ i : grid0.Coords, EltTy.bits .bf16 = 32 ∨ (Rect.block (s := S8192x2304) S2048x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x2304.size a
  hwx1_0 : ∀ i : grid1.Coords, EltTy.bits .bf16 = 32 ∨ (Rect.block (s := S8192x2304) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x2304.size a
  hwx1_1 : ∀ i : grid1.Coords, EltTy.bits .bf16 = 32 ∨ (Rect.block (s := S8192x2304) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x2304.size a
  hwx1_2 : ∀ i : grid1.Coords, EltTy.bits .bf16 = 32 ∨ (Rect.block (s := S8192x2304) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x768.size a
  hwx1_3 : ∀ i : grid1.Coords, EltTy.bits .bf16 = 32 ∨ (Rect.block (s := S8192x768) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x768.size a ≤ S8192x768.size a
  hwx2_0 : ∀ i : grid2.Coords, EltTy.bits .bf16 = 32 ∨ (Rect.block (s := S8192x768) S2048x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x768.size a ≤ S8192x768.size a
  hwx2_3 : ∀ i : grid2.Coords, EltTy.bits .f32 = 32 ∨ (Rect.block (s := S8192x768) S2048x768.size (cc2_transform_3 i) (hinb2_3 i)).WholeWords (EltTy.packing .f32)

variable [Facts₀]

def dot_S2048x768_S768x2304_S2048x2304_1_0_0_1_n_n : DotDims S2048x768 S768x2304 S2048x2304 where
  lhsContracting := [1]
  rhsContracting := [0]
  lhsNonContracting := [0]
  rhsNonContracting := [1]
  lhsBatch := []
  rhsBatch := []
  wf := dot_S2048x768_S768x2304_S2048x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S2048x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S2048x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x32x32x768 : Shape := ⟨4, ![8, 32, 32, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S8x32x32x2304 : Shape := ⟨4, ![8, 32, 32, 2304]⟩
abbrev S1x1x1x2304 : Shape := ⟨4, ![1, 1, 1, 2304]⟩
abbrev S8x1024x3x12x64 : Shape := ⟨5, ![8, 1024, 3, 12, 64]⟩
abbrev S3x8x12x1024x64 : Shape := ⟨5, ![3, 8, 12, 1024, 64]⟩
abbrev S3x96x1024x64 : Shape := ⟨4, ![3, 96, 1024, 64]⟩
abbrev S1x96x1024x64 : Shape := ⟨4, ![1, 96, 1024, 64]⟩
abbrev S96x1024x64 : Shape := ⟨3, ![96, 1024, 64]⟩
abbrev S_ : Shape := ⟨0, ![]⟩
abbrev S96x1024x1024 : Shape := ⟨3, ![96, 1024, 1024]⟩
abbrev S96x1024 : Shape := ⟨2, ![96, 1024]⟩
abbrev S96x1024x1 : Shape := ⟨3, ![96, 1024, 1]⟩
abbrev S8x12x32x32x64 : Shape := ⟨5, ![8, 12, 32, 32, 64]⟩
abbrev S8x32x32x12x64 : Shape := ⟨5, ![8, 32, 32, 12, 64]⟩
abbrev S1x1x1x768 : Shape := ⟨4, ![1, 1, 1, 768]⟩

abbrev nBuf : Space → Nat
  | .hbm => 44
  | .vmem => 0
  | .smem => 0
  | _ => 0

abbrev bufTy : (tb : Table) → Fin (tcTables nBuf tb) → BufTy
  | .hbm, ⟨0, _⟩ => ⟨S8x32x32x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8x32x32x2304, .f32⟩
  | .hbm, ⟨6, _⟩ => ⟨S1x1x1x2304, .f32⟩
  | .hbm, ⟨7, _⟩ => ⟨S8x32x32x2304, .f32⟩
  | .hbm, ⟨8, _⟩ => ⟨S8x32x32x2304, .f32⟩
  | .hbm, ⟨9, _⟩ => ⟨S8x1024x3x12x64, .f32⟩
  | .hbm, ⟨10, _⟩ => ⟨S3x8x12x1024x64, .f32⟩
  | .hbm, ⟨11, _⟩ => ⟨S3x96x1024x64, .f32⟩
  | .hbm, ⟨12, _⟩ => ⟨S1x96x1024x64, .f32⟩
  | .hbm, ⟨13, _⟩ => ⟨S96x1024x64, .f32⟩
  | .hbm, ⟨14, _⟩ => ⟨S1x96x1024x64, .f32⟩
  | .hbm, ⟨15, _⟩ => ⟨S96x1024x64, .f32⟩
  | .hbm, ⟨16, _⟩ => ⟨S1x96x1024x64, .f32⟩
  | .hbm, ⟨17, _⟩ => ⟨S96x1024x64, .f32⟩
  | .hbm, ⟨18, _⟩ => ⟨S_, .f32⟩
  | .hbm, ⟨19, _⟩ => ⟨S96x1024x64, .f32⟩
  | .hbm, ⟨20, _⟩ => ⟨S96x1024x64, .f32⟩
  | .hbm, ⟨21, _⟩ => ⟨S96x1024x1024, .f32⟩
  | .hbm, ⟨22, _⟩ => ⟨S_, .f32⟩
  | .hbm, ⟨23, _⟩ => ⟨S96x1024, .f32⟩
  | .hbm, ⟨24, _⟩ => ⟨S_, .f32⟩
  | .hbm, ⟨25, _⟩ => ⟨S96x1024, .f32⟩
  | .hbm, ⟨26, _⟩ => ⟨S96x1024, .f32⟩
  | .hbm, ⟨27, _⟩ => ⟨S96x1024x1, .f32⟩
  | .hbm, ⟨28, _⟩ => ⟨S96x1024x1024, .f32⟩
  | .hbm, ⟨29, _⟩ => ⟨S96x1024x1024, .f32⟩
  | .hbm, ⟨30, _⟩ => ⟨S96x1024x1024, .f32⟩
  | .hbm, ⟨31, _⟩ => ⟨S_, .f32⟩
  | .hbm, ⟨32, _⟩ => ⟨S96x1024, .f32⟩
  | .hbm, ⟨33, _⟩ => ⟨S96x1024x1, .f32⟩
  | .hbm, ⟨34, _⟩ => ⟨S96x1024x1024, .f32⟩
  | .hbm, ⟨35, _⟩ => ⟨S96x1024x1024, .f32⟩
  | .hbm, ⟨36, _⟩ => ⟨S96x1024x64, .f32⟩
  | .hbm, ⟨37, _⟩ => ⟨S8x12x32x32x64, .f32⟩
  | .hbm, ⟨38, _⟩ => ⟨S8x32x32x12x64, .f32⟩
  | .hbm, ⟨39, _⟩ => ⟨S8x32x32x768, .f32⟩
  | .hbm, ⟨40, _⟩ => ⟨S8x32x32x768, .f32⟩
  | .hbm, ⟨41, _⟩ => ⟨S1x1x1x768, .f32⟩
  | .hbm, ⟨42, _⟩ => ⟨S8x32x32x768, .f32⟩
  | .hbm, ⟨43, _⟩ => ⟨S8x32x32x768, .f32⟩
  | _, _ => ⟨S8x32x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S2304_S1x1x1x2304_3 : S2304.BroadcastsInDim S1x1x1x2304 (![3] : Fin 1 → Fin S1x1x1x2304.rank)
  bcast_S1x1x1x2304_S8x32x32x2304_0_1_2_3 : S1x1x1x2304.BroadcastsInDim S8x32x32x2304 (![0, 1, 2, 3] : Fin 4 → Fin S8x32x32x2304.rank)
  shapeCasts_S8x32x32x2304_S8x1024x3x12x64 : S8x32x32x2304.ShapeCasts S8x1024x3x12x64
  transposes_S8x1024x3x12x64_S3x8x12x1024x64_2_0_3_1_4 : S8x1024x3x12x64.Transposes [2, 0, 3, 1, 4] S3x8x12x1024x64
  shapeCasts_S3x8x12x1024x64_S3x96x1024x64 : S3x8x12x1024x64.ShapeCasts S3x96x1024x64
  slices_S3x96x1024x64_S1x96x1024x64_0_0_0_0 : S3x96x1024x64.Slices ![0, 0, 0, 0] S1x96x1024x64
  shapeCasts_S1x96x1024x64_S96x1024x64 : S1x96x1024x64.ShapeCasts S96x1024x64
  slices_S3x96x1024x64_S1x96x1024x64_1_0_0_0 : S3x96x1024x64.Slices ![1, 0, 0, 0] S1x96x1024x64
  slices_S3x96x1024x64_S1x96x1024x64_2_0_0_0 : S3x96x1024x64.Slices ![2, 0, 0, 0] S1x96x1024x64
  bcast_S_S96x1024x64 : S_.BroadcastsInDim S96x1024x64 (![] : Fin 0 → Fin S96x1024x64.rank)
  reducesTo_S96x1024x1024_S96x1024_d2 : S96x1024x1024.ReducesTo [2] S96x1024
  h_S_ : 0 < S_.numel
  bcast_S_S96x1024 : S_.BroadcastsInDim S96x1024 (![] : Fin 0 → Fin S96x1024.rank)
  bcast_S96x1024_S96x1024x1_0_1 : S96x1024.BroadcastsInDim S96x1024x1 (![0, 1] : Fin 2 → Fin S96x1024x1.rank)
  bcast_S96x1024x1_S96x1024x1024_0_1_2 : S96x1024x1.BroadcastsInDim S96x1024x1024 (![0, 1, 2] : Fin 3 → Fin S96x1024x1024.rank)
  shapeCasts_S96x1024x64_S8x12x32x32x64 : S96x1024x64.ShapeCasts S8x12x32x32x64
  transposes_S8x12x32x32x64_S8x32x32x12x64_0_2_3_1_4 : S8x12x32x32x64.Transposes [0, 2, 3, 1, 4] S8x32x32x12x64
  shapeCasts_S8x32x32x12x64_S8x32x32x768 : S8x32x32x12x64.ShapeCasts S8x32x32x768
  bcast_S768_S1x1x1x768_3 : S768.BroadcastsInDim S1x1x1x768 (![3] : Fin 1 → Fin S1x1x1x768.rank)
  bcast_S1x1x1x768_S8x32x32x768_0_1_2_3 : S1x1x1x768.BroadcastsInDim S8x32x32x768 (![0, 1, 2, 3] : Fin 4 → Fin S8x32x32x768.rank)
  dot_S8x32x32x768_S2304x768_S8x32x32x2304_3_1_012_0_n_n_wf : DotDims.WF S8x32x32x768 S2304x768 S8x32x32x2304 [3] [1] [0, 1, 2] [0] [] []
  dot_S96x1024x64_S96x1024x64_S96x1024x1024_2_2_1_1_0_0_wf : DotDims.WF S96x1024x64 S96x1024x64 S96x1024x1024 [2] [2] [1] [1] [0] [0]
  dot_S96x1024x1024_S96x1024x64_S96x1024x64_2_1_1_2_0_0_wf : DotDims.WF S96x1024x1024 S96x1024x64 S96x1024x64 [2] [1] [1] [2] [0] [0]
  dot_S8x32x32x768_S768x768_S8x32x32x768_3_1_012_0_n_n_wf : DotDims.WF S8x32x32x768 S768x768 S8x32x32x768 [3] [1] [0, 1, 2] [0] [] []

variable [Facts₀]

def dot_S8x32x32x768_S2304x768_S8x32x32x2304_3_1_012_0_n_n : DotDims S8x32x32x768 S2304x768 S8x32x32x2304 where
  lhsContracting := [3]
  rhsContracting := [1]
  lhsNonContracting := [0, 1, 2]
  rhsNonContracting := [0]
  lhsBatch := []
  rhsBatch := []
  wf := dot_S8x32x32x768_S2304x768_S8x32x32x2304_3_1_012_0_n_n_wf
def dot_S96x1024x64_S96x1024x64_S96x1024x1024_2_2_1_1_0_0 : DotDims S96x1024x64 S96x1024x64 S96x1024x1024 where
  lhsContracting := [2]
  rhsContracting := [2]
  lhsNonContracting := [1]
  rhsNonContracting := [1]
  lhsBatch := [0]
  rhsBatch := [0]
  wf := dot_S96x1024x64_S96x1024x64_S96x1024x1024_2_2_1_1_0_0_wf
def dot_S96x1024x1024_S96x1024x64_S96x1024x64_2_1_1_2_0_0 : DotDims S96x1024x1024 S96x1024x64 S96x1024x64 where
  lhsContracting := [2]
  rhsContracting := [1]
  lhsNonContracting := [1]
  rhsNonContracting := [2]
  lhsBatch := [0]
  rhsBatch := [0]
  wf := dot_S96x1024x1024_S96x1024x64_S96x1024x64_2_1_1_2_0_0_wf
def dot_S8x32x32x768_S768x768_S8x32x32x768_3_1_012_0_n_n : DotDims S8x32x32x768 S768x768 S8x32x32x768 where
  lhsContracting := [3]
  rhsContracting := [1]
  lhsNonContracting := [0, 1, 2]
  rhsNonContracting := [0]
  lhsBatch := []
  rhsBatch := []
  wf := dot_S8x32x32x768_S768x768_S8x32x32x768_3_1_012_0_n_n_wf

class Facts : Prop extends Facts₀ where

variable [Facts]
-- ==== Proof.KBody0.lean ====
/-
  Region 0 (the first matmul-plus-bias call), the half of its certificate that concerns the kernel body alone.

  The body reads three whole blocks — a 2048x768 block x of the activations, the whole 768x2304 weight w and the
  whole 1x2304 bias b — and writes one whole 2048x2304 block: truncate(truncate(x) · w + broadcast b). So what it
  leaves in the output block is a function of the three input blocks at the grid point, and nothing else. This
  module states that function (out0_3), proves the body's triple against it, and packages the per-point statement
  the pipeline rule asks for. Everything is generic in the float model F and in the buffer contents V with which
  the region is entered.
-/
import proofs.«178434_j73461120630936_2_alg».proof.Proof.Gen.Kernel.Launch
import proofs.«178434_j73461120630936_2_alg».proof.Proof.Gen.Kernel.Skeleton
import proofs.«178434_j73461120630936_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window w at grid point t, cut out of that window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What an input buffer holds when the body starts

An input's block index is a function of the grid point. Where it changes the block is fetched anew; where it does not
(the weight and the bias have a constant index, so they are fetched once, at the first point) the buffer still holds
the block put there earlier, and that block IS the current one because the index did not move and the body leaves
its inputs as it found them. Either way the buffer holds the window's block at the point. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each one a whole buffer -/

abbrev r0_0 : Rect S2048x768 := Rect.unit (s := S2048x768) ![0, 0] S2048x768.size inb_S2048x768_S2048x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S2048x2304 := Rect.unit (s := S2048x2304) ![0, 0] S2048x2304.size inb_S2048x2304_S2048x2304_0_0

/-! ## The output block as a function of the input blocks -/

/-- What the body leaves in the output buffer: its single store, of truncate(truncate(x0) · x1 + broadcast x2),
    laid over the whole block. -/
def out0_3 (x0 : Vec F S2048x768 .f32) (x1 : Vec F S768x2304 .bf16) (x2 : Vec F S1x2304 .f32) : Vec F S2048x2304 .bf16 :=
  View.canon [⟨r0_3, k0_pay1 (View.ld x0 r0_0) (View.ld x1 r0_1) (View.ld x2 r0_2)⟩]

/-- That one store reaches every index of the block. -/
theorem cover0_3 (p0 : Vec F S2048x2304 .bf16) (y : S2048x2304.Idx) :
    ∃ pc ∈ ([⟨r0_3, p0⟩] : List (View.Piece (Elt F) S2048x2304 .bf16)), y ∈ pc.1.set :=
  View.cover_of_tiled [⟨r0_3, p0⟩] S2048x2304.size (by rfl) y

/-! ## The body's triple -/

set_option maxHeartbeats 1000000 in
/-- Run on whole buffers, the inputs holding x0, x1, x2 and the output holding anything, the body hands every buffer
    back, the inputs unchanged and the output at out0_3 x0 x1 x2. It also loads the output buffer before storing;
    the value loaded is not used. -/
theorem sound_kernel0 (c : Dev nD) (E : Set ℕ) (i : grid0.Coords)
    (arg1 : Memref sig .tc .vmem S2048x768 .f32) (harg1 : arg1.IsWhole)
    (arg2 : Memref sig .tc .vmem S768x2304 .bf16) (harg2 : arg2.IsWhole)
    (arg3 : Memref sig .tc .vmem S1x2304 .f32) (harg3 : arg3.IsWhole)
    (arg4 : Memref sig .tc .vmem S2048x2304 .bf16) (harg4 : arg4.IsWhole)
    (x0 : Vec F S2048x768 .f32) (x1 : Vec F S768x2304 .bf16) (x2 : Vec F S1x2304 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the pipeline -/

/-- Arrays as the region finds them; after the body at point t each input buffer still at its block and the output
    buffer at out0_3 of the three input blocks; the invariant is the untouched rest; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- What the body is entered with at point t: the invariant, what is owed, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The three input buffers hold their blocks, so the kernel's triple applies; the invariant and what is owed are
    not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point statement the pipeline rule asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBody1a.lean ====
import proofs.«178434_j73461120630936_2_alg».proof.Proof.Gen.Kernel.Launch
import proofs.«178434_j73461120630936_2_alg».proof.Proof.Gen.Kernel.Skeleton
import proofs.«178434_j73461120630936_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.RA.PCS

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The shares of the three input windows, all on one array: the left half of the full share, and the two halves of
    its right half; the output window's array is held outright. -/
def q1 : Fin cfg1.W → PosShare TreeShare
  | ⟨0, _⟩ => fullShare.left
  | ⟨1, _⟩ => fullShare.right.left
  | ⟨2, _⟩ => fullShare.right.right
  | ⟨3, _⟩ => fullShare

/-- The full share is the first window's share and the right half; the right half is the other two windows' shares. -/
theorem q1_split_outer : fullShare ∈ q1 0 ·? fullShare.right := PosShare.mem_left_op_right fullShare
theorem q1_split_inner : fullShare.right ∈ q1 1 ·? q1 2 := PosShare.mem_left_op_right fullShare.right

/-- The whole 1024x128 block: the one rectangle every load and the store of the body go through. -/
abbrev r1_0 : Rect S1024x128 := Rect.unit (s := S1024x128) ![0, 0] S1024x128.size inb_S1024x128_S1024x128_0_0

/-- What the body leaves in the output window's buffer, from the three input blocks: its one whole-block store, whose
    payload is the two heads' attention outputs side by side, rounded to bf16. -/
def out1_3 (x0 x1 x2 : Vec F S1024x128 .bf16) : Vec F S1024x128 .bf16 :=
  View.canon [⟨r1_0, k1_pay1 (k1_pay5 (View.ld x0 r1_0) (View.ld x1 r1_0) (View.ld x2 r1_0)) (k1_pay6 (View.ld x2 r1_0)) (k1_pay7 (View.ld x0 r1_0) (View.ld x1 r1_0))⟩]

/-- The proof data of the attention pipeline on core `c`: the arrays as the region finds them (`V`); after the body at
    point `t` each input's buffer at its block and the output's at `out1_3` of the three input blocks; the untouched
    scoped rest and generator register as invariant; nothing owed; the one input array split among its three windows
    by `q1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- The share each window holds its array at: the input windows their own, the output window the full share. -/
theorem share1 (c : Dev nD) : ∀ w, (dat1 V c).share w = q1 w :=
  fun | ⟨0, _⟩ => rfl | ⟨1, _⟩ => rfl | ⟨2, _⟩ => rfl | ⟨3, _⟩ => rfl

/-- The region's arrays, window by window: each is a whole buffer, the three input windows' the one buffer. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v6) ↦{q1 0} G 0) ∗ (((c : Thread nD τ).loc main_v6) ↦{q1 1} G 1)
          ∗ (((c : Thread nD τ).loc main_v6) ↦{q1 2} G 2) ∗ (((c : Thread nD τ).loc main_v7) ↦{fullShare} G 3)) := by
  unfold Dat.arrays
  rw [bigSep_W1, share1, share1, share1, share1, (arr_whole1 0).set_eq_univ, (arr_whole1 3).set_eq_univ]
  rfl

/-- The two distinct buffers behind the region's arrays. -/
theorem arrBufs1_eq (c : Dev nD) (W : (b : Ref sig .tc) → Buf (Elt F) ((c : Thread nD τ).loc b)) :
    (Pipeline.arrBufs spec1 c W : sProp 𝕄)
      = iprop((((c : Thread nD τ).loc main_v6) ↦{fullShare} W main_v6) ∗ (((c : Thread nD τ).loc main_v7) ↦{fullShare} W main_v7)) := by
  unfold Pipeline.arrBufs
  rw [bigSep_eq_bigSepL_of_eq [main_v6, main_v7] (by decide) (by decide)]
  rfl

/-- One buffer at the full share is the three input windows' shares of it, and back. -/
theorem split3 (c : Dev nD) (f : Buf (Elt F) ((c : Thread nD τ).loc main_v6)) :
    ((((c : Thread nD τ).loc main_v6) ↦{fullShare} f : sProp 𝕄))
      ⊣⊢ iprop((((c : Thread nD τ).loc main_v6) ↦{q1 0} f) ∗ (((c : Thread nD τ).loc main_v6) ↦{q1 1} f)
          ∗ (((c : Thread nD τ).loc main_v6) ↦{q1 2} f)) :=
  (pointsTo_share q1_split_outer).trans (sep_congr .rfl (pointsTo_share q1_split_inner))

/-- A core's unscoped buffers are the two buffers behind the region's arrays and the rest. -/
theorem unscopedBufs_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: a core's unscoped buffers at `V c` are the region's arrays at the proof data's entry contents — the input
    array's full share dealt to its three windows — and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [unscopedBufs_split1, arrBufs1_eq, arrays1_eq]
  refine sep_mono ?_ .rfl
  iintro ⟨H6, H7⟩
  ihave H := (split3 c (V c main_v6)).1 $$ H6
  icases H with ⟨H0, H1, H2⟩
  isplitl [H0]; · iexact H0
  isplitl [H1]; · iexact H1
  isplitl [H2]; · iexact H2
  iexact H7

/-- EXIT: the region's arrays at contents `G` and the unscoped rest at `V c` are the core's unscoped buffers at any
    `V'` that has the arrays at `G` and agrees with `V c` off them: the three windows on the input array hold it at
    one contents, so their shares rejoin to the full share. -/
theorem unscopedBufs_of_arrays1' (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1, arrBufs1_eq, arrays1_eq, hG 0, hG 1, hG 2, hG 3]
  refine sep_mono ?_ (Entails.of_eq ?_)
  · iintro ⟨H0, H1, H2, H7⟩
    isplitr [H7]
    · iapply (split3 c (V' main_v6)).2
      isplitl [H0]; · iexact H0
      isplitl [H1]; · iexact H1
      iexact H2
    · iexact H7
  · unfold Pipeline.unscopedRest
    exact bigSep_congr fun b hb => by rw [hrest b (Finset.mem_sdiff.mp hb).2]

/-- The same at the arrays' final contents. -/
theorem unscopedBufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) :=
  unscopedBufs_of_arrays1' V c V' _ hF hrest

end Cert.Kernel.Fr

end
-- ==== Proof.KBody1b.lean ====
import proofs.«178434_j73461120630936_2_alg».proof.Proof.Gen.Kernel.Launch
import proofs.«178434_j73461120630936_2_alg».proof.Proof.Gen.Kernel.Skeleton
import proofs.«178434_j73461120630936_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178434_j73461120630936_2_alg».proof.Proof.KBody1a

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.RA.PCS

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The store of the body tiles the output buffer, so it covers it. -/
theorem cover1_3 (p0 : Vec F S1024x128 .bf16) (y : S1024x128.Idx) :
    ∃ pc ∈ ([⟨r1_0, p0⟩] : List (View.Piece (Elt F) S1024x128 .bf16)), y ∈ pc.1.set :=
  View.cover_of_tiled [⟨r1_0, p0⟩] S1024x128.size (by rfl) y

set_option maxHeartbeats 1000000 in
/-- The kernel body on whole staging memrefs, the three inputs' at read contents `x0 x1 x2` and the output's at
    anything, runs to the continuation holding the inputs' as they were and the output's at `out1_3` of the inputs. -/
theorem sound_kernel1 (c : Dev nD) (E : Set ℕ) (i : grid1.Coords)
    (arg0 : Memref sig .tc .vmem S1024x128 .bf16) (harg0 : arg0.IsWhole) (arg1 : Memref sig .tc .vmem S1024x128 .bf16) (harg1 : arg1.IsWhole)
    (arg2 : Memref sig .tc .vmem S1024x128 .bf16) (harg2 : arg2.IsWhole) (arg3 : Memref sig .tc .vmem S1024x128 .bf16) (harg3 : arg3.IsWhole)
    (x0 x1 x2 : Vec F S1024x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KBody2.lean ====
/-
  Region 2 (the second matmul-plus-bias call, the output projection), the half of its certificate that concerns the
  kernel body alone.

  The body reads three whole blocks — a 2048x768 block a of the attention output, the whole 768x768 weight w and the
  whole 1x768 bias b — and writes one whole 2048x768 block: a · w + broadcast b, where the product of the two
  bfloat16 operands is taken onto a zero single-precision matrix, the bias is added in single precision, and the
  sum is stored as it is (no truncation). What it leaves in the output block is therefore a function of the three
  input blocks at the grid point.
  This module states that function (out2_3), proves the body's triple against it, and packages the per-point
  statement the pipeline rule asks for, generically in the float model F and in the buffer contents V with which
  the region is entered.
-/
import proofs.«178434_j73461120630936_2_alg».proof.Proof.Gen.Kernel.Launch
import proofs.«178434_j73461120630936_2_alg».proof.Proof.Gen.Kernel.Skeleton
import proofs.«178434_j73461120630936_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window w at grid point t, cut out of that window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What an input buffer holds when the body starts

The row block of the attention output moves with the grid point and is fetched at each; the weight and the bias have
a constant block index and are fetched at the first point only. A buffer not fetched at a point keeps the block it
was given earlier, which is the current block since the index has not moved and the body does not write its inputs.
So at every point each input buffer holds its window's block there. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each one a whole buffer -/

abbrev r2_0 : Rect S2048x768 := Rect.unit (s := S2048x768) ![0, 0] S2048x768.size inb_S2048x768_S2048x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0
abbrev r2_3 : Rect S2048x768 := Rect.unit (s := S2048x768) ![0, 0] S2048x768.size inb_S2048x768_S2048x768_0_0

/-! ## The output block as a function of the input blocks -/

/-- What the body leaves in the output buffer: its single store, of x0 · x1 + broadcast x2, laid over the whole
    block. -/
def out2_3 (x0 : Vec F S2048x768 .bf16) (x1 : Vec F S768x768 .bf16) (x2 : Vec F S1x768 .f32) : Vec F S2048x768 .f32 :=
  View.canon [⟨r2_3, k2_pay1 (View.ld x0 r2_0) (View.ld x1 r2_1) (View.ld x2 r2_2)⟩]

/-- That one store reaches every index of the block. -/
theorem cover2_3 (p0 : Vec F S2048x768 .f32) (y : S2048x768.Idx) :
    ∃ pc ∈ ([⟨r2_3, p0⟩] : List (View.Piece (Elt F) S2048x768 .f32)), y ∈ pc.1.set :=
  View.cover_of_tiled [⟨r2_3, p0⟩] S2048x768.size (by rfl) y

/-! ## The body's triple -/

set_option maxHeartbeats 1000000 in
/-- Run on whole buffers, the inputs holding x0, x1, x2 and the output holding anything, the body hands every buffer
    back, the inputs unchanged and the output at out2_3 x0 x1 x2. It also loads the output buffer before storing;
    the value loaded is not used. -/
theorem sound_kernel2 (c : Dev nD) (E : Set ℕ) (i : grid2.Coords)
    (arg1 : Memref sig .tc .vmem S2048x768 .bf16) (harg1 : arg1.IsWhole)
    (arg2 : Memref sig .tc .vmem S768x768 .bf16) (harg2 : arg2.IsWhole)
    (arg3 : Memref sig .tc .vmem S1x768 .f32) (harg3 : arg3.IsWhole)
    (arg4 : Memref sig .tc .vmem S2048x768 .f32) (harg4 : arg4.IsWhole)
    (x0 : Vec F S2048x768 .bf16) (x1 : Vec F S768x768 .bf16) (x2 : Vec F S1x768 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data of the pipeline -/

/-- Arrays as the region finds them; after the body at point t each input buffer still at its block and the output
    buffer at out2_3 of the three input blocks; the invariant is the untouched rest; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a grid point -/

/-- What the body is entered with at point t: the invariant, what is owed, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The three input buffers hold their blocks, so the kernel's triple applies; the invariant and what is owed are
    not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point statement the pipeline rule asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRun.lean ====
/-
  The run of the kernel program from launch to return.

  @main is six items in a row: a stretch of host operations (the input laid flat, the two weight matrices transposed, the
  first bias made a row), the projection kernel, the attention kernel, one host operation (the second bias made a row), the
  output-projection kernel, and the final reshape. This module follows the contents of every buffer that outlives a kernel
  through those six items: a host stretch changes them by the operations' composed function; a kernel changes only its
  output array, to what its grid points' write-backs leave there, and leaves every other buffer as it found it (the
  attention kernel reads ONE array through three windows, each holding a part of the array's ownership while it runs, and
  hands it back whole). Each kernel is entered at the contents the previous item left. The result: every weakly fair
  execution terminates without a fault, and in the final state every such buffer holds the contents the six items compose
  to — in particular each argument array is as launched, and the result array is the reshape of what the third kernel
  left.
-/
import proofs.«178434_j73461120630936_2_alg».proof.Proof.KBody0
import proofs.«178434_j73461120630936_2_alg».proof.Proof.KBody1b
import proofs.«178434_j73461120630936_2_alg».proof.Proof.KBody2
import proofs.«178434_j73461120630936_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch. -/
abbrev W0 : Dev nD → Valuation τ sig (Elt F) := fun c b => (s₀ m ρ).mem ((c : Dev nD), b)
/-- After the first host stretch: the projection kernel is entered here. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention kernel: only its output array changes, to what its write-backs leave; the array its three input
    windows read is as entered. -/
def W3 (c : Dev nD) : Valuation τ sig (Elt F) :=
  Function.update (W2 m ρ c) (Proc.devRef .tc main_v7) ((dat1 (V2 m ρ) c).arrAt 3 cfg1.N)
theorem W3_v7 (c : Dev nD) : W3 m ρ c (Proc.devRef .tc main_v7) = (dat1 (V2 m ρ) c).arrAt 3 cfg1.N := by
  unfold W3; exact Function.update_self _ _ _
theorem W3_of_ne (c : Dev nD) (b : Ref sig .tc) (hb : b ≠ main_v7) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c main_v6 (by decide)).symm
  | ⟨1, _⟩ => exact (((dat1 (V2 m ρ) c).arrAt_in 1 rfl _).trans (A_eq1 (V2 m ρ) c 1)).trans (W3_of_ne m ρ c main_v6 (by decide)).symm
  | ⟨2, _⟩ => exact (((dat1 (V2 m ρ) c).arrAt_in 2 rfl _).trans (A_eq1 (V2 m ρ) c 2)).trans (W3_of_ne m ρ c main_v6 (by decide)).symm
  | ⟨3, _⟩ => exact (W3_v7 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- After the one host operation between the last two kernels: the output projection is entered here. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the output-projection kernel. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the final reshape: what the launch reads at the end. -/
abbrev W6 : Dev nD → Valuation τ sig (Elt F) := fun c => StableHlo.after hostOps3 (W5 m ρ c)

/-! ## The proof data family and what rides beside the buffers -/

abbrev adm : (p : Fin 3) → (pcfgs (F := F) p).Adm := fun p => (cfgs p).toPCfg_adm
/-- Each kernel's proof data at the contents it is entered at. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer that outlives a kernel at the final contents. -/
abbrev Tₙ (c : Dev nD) : sProp 𝕄 := iprop(StableHlo.held (c : Thread nD τ) (Pipeline.ucRefs τ sig) (W6 m ρ c) ∗ ∃ r, prngReg c r)

/-! ## The kernels as items -/

set_option backward.isDefEq.respectTransparency.types false in
/-- The projection kernel: entered from every buffer at `W1`, left at `W2`. Its four arrays are distinct buffers, split
    out of the thread state whole and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every buffer at `W2`, left at `W3`. Three of its windows read one array: at entry
    that array's ownership is dealt among them, at exit it is put together again, its contents unchanged. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) :=
      arrays1_of_unscopedBufs (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs c (V3 m ρ c) : sProp 𝕄) :=
      unscopedBufs_of_arrays1 (F := F) (V2 m ρ) c (V3 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-projection kernel: entered from every buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six items, and the run -/

/-- The last host stretch ends at `W6` beside the register; what is owed is kept apart, as the launch reads the end. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state each buffer that outlives a kernel holds the contents the six items compose to. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Fr

end
-- ==== Proof.KFrame.lean ====
/-
  The frame of the kernel program: it runs to the end without a fault and every argument array ends as launched.

  No host operation writes an argument array (each writes a fresh buffer), and a kernel changes only its own output array,
  which is no argument; so following an argument's buffer back through @main's six items reaches the launch memory.
-/
import proofs.«178434_j73461120630936_2_alg».proof.Proof.KRun

set_option maxRecDepth 16384

noncomputable section

namespace Cert.Kernel.Fr

open Cert.Kernel Cert.Kernel.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## No item writes an argument array -/

theorem W6_arg (c : Dev nD) (r : Ref sig .tc) (h0 : r ∉ hostOps0_W) (h2 : r ∉ hostOps2_W) (h3 : r ∉ hostOps3_W)
    (ha0 : ∀ w, Pipeline.arrRef spec0 w ≠ r) (h7 : r ≠ main_v7) (ha2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := StableHlo.after_of_writes_sub hostOps3 _ hostOps3_writes h3
    _ = W4 m ρ c (Proc.devRef .tc r) := W5_of_ne m ρ c r ha2
    _ = W3 m ρ c (Proc.devRef .tc r) := StableHlo.after_of_writes_sub hostOps2 _ hostOps2_writes h2
    _ = W2 m ρ c (Proc.devRef .tc r) := W3_of_ne m ρ c r h7
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W6_main_arg0 (c : Dev nD) : W6 m ρ c (Proc.devRef .tc main_arg0) = m ((c : Thread nD τ).loc main_arg0) :=
  W6_arg m ρ c main_arg0 (by decide) (by decide) (by decide) (by decide) (by decide) (by decide)
theorem W6_main_arg1 (c : Dev nD) : W6 m ρ c (Proc.devRef .tc main_arg1) = m ((c : Thread nD τ).loc main_arg1) :=
  W6_arg m ρ c main_arg1 (by decide) (by decide) (by decide) (by decide) (by decide) (by decide)
theorem W6_main_arg2 (c : Dev nD) : W6 m ρ c (Proc.devRef .tc main_arg2) = m ((c : Thread nD τ).loc main_arg2) :=
  W6_arg m ρ c main_arg2 (by decide) (by decide) (by decide) (by decide) (by decide) (by decide)
theorem W6_main_arg3 (c : Dev nD) : W6 m ρ c (Proc.devRef .tc main_arg3) = m ((c : Thread nD τ).loc main_arg3) :=
  W6_arg m ρ c main_arg3 (by decide) (by decide) (by decide) (by decide) (by decide) (by decide)
theorem W6_main_arg4 (c : Dev nD) : W6 m ρ c (Proc.devRef .tc main_arg4) = m ((c : Thread nD τ).loc main_arg4) :=
  W6_arg m ρ c main_arg4 (by decide) (by decide) (by decide) (by decide) (by decide) (by decide)

/-- THE FRAME: every weakly fair execution terminates without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩)
    (run_main m ρ)

end Cert.Kernel.Fr

end
-- ==== Proof.Body0.lean ====
/-
  Region 0 (the first matmul-plus-bias call), the half of its certificate that concerns the kernel body alone.

  The body reads three whole blocks — a 2048x768 block x of the activations, the whole 768x2304 weight w and the
  whole 1x2304 bias b — and writes one whole 2048x2304 block: truncate(truncate(x) · w + broadcast b). So what it
  leaves in the output block is a function of the three input blocks at the grid point, and nothing else. This
  module states that function (out0_3), proves the body's triple against it, and packages the per-point statement
  the pipeline rule asks for. Everything is generic in the float model F and in the buffer contents V with which
  the region is entered.
-/
import proofs.«178434_j73461120630936_2_alg».proof.Proof.Gen.KernelIdeal.Launch
import proofs.«178434_j73461120630936_2_alg».proof.Proof.Gen.KernelIdeal.Skeleton
import proofs.«178434_j73461120630936_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window w at grid point t, cut out of that window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What an input buffer holds when the body starts

An input's block index is a function of the grid point. Where it changes the block is fetched anew; where it does not
(the weight and the bias have a constant index, so they are fetched once, at the first point) the buffer still holds
the block put there earlier, and that block IS the current one because the index did not move and the body leaves
its inputs as it found them. Either way the buffer holds the window's block at the point. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each one a whole buffer -/

abbrev r0_0 : Rect S2048x768 := Rect.unit (s := S2048x768) ![0, 0] S2048x768.size inb_S2048x768_S2048x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S2048x2304 := Rect.unit (s := S2048x2304) ![0, 0] S2048x2304.size inb_S2048x2304_S2048x2304_0_0

/-! ## The output block as a function of the input blocks -/

/-- What the body leaves in the output buffer: its single store, of truncate(truncate(x0) · x1 + broadcast x2),
    laid over the whole block. -/
def out0_3 (x0 : Vec F S2048x768 .f32) (x1 : Vec F S768x2304 .bf16) (x2 : Vec F S1x2304 .f32) : Vec F S2048x2304 .bf16 :=
  View.canon [⟨r0_3, k0_pay1 (View.ld x0 r0_0) (View.ld x1 r0_1) (View.ld x2 r0_2)⟩]

/-- That one store reaches every index of the block. -/
theorem cover0_3 (p0 : Vec F S2048x2304 .bf16) (y : S2048x2304.Idx) :
    ∃ pc ∈ ([⟨r0_3, p0⟩] : List (View.Piece (Elt F) S2048x2304 .bf16)), y ∈ pc.1.set :=
  View.cover_of_tiled [⟨r0_3, p0⟩] S2048x2304.size (by rfl) y

/-! ## The body's triple -/

set_option maxHeartbeats 1000000 in
/-- Run on whole buffers, the inputs holding x0, x1, x2 and the output holding anything, the body hands every buffer
    back, the inputs unchanged and the output at out0_3 x0 x1 x2. It also loads the output buffer before storing;
    the value loaded is not used. -/
theorem sound_kernel0 (c : Dev nD) (E : Set ℕ) (i : grid0.Coords)
    (arg1 : Memref sig .tc .vmem S2048x768 .f32) (harg1 : arg1.IsWhole)
    (arg2 : Memref sig .tc .vmem S768x2304 .bf16) (harg2 : arg2.IsWhole)
    (arg3 : Memref sig .tc .vmem S1x2304 .f32) (harg3 : arg3.IsWhole)
    (arg4 : Memref sig .tc .vmem S2048x2304 .bf16) (harg4 : arg4.IsWhole)
    (x0 : Vec F S2048x768 .f32) (x1 : Vec F S768x2304 .bf16) (x2 : Vec F S1x2304 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the pipeline -/

/-- Arrays as the region finds them; after the body at point t each input buffer still at its block and the output
    buffer at out0_3 of the three input blocks; the invariant is the untouched rest; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- What the body is entered with at point t: the invariant, what is owed, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The three input buffers hold their blocks, so the kernel's triple applies; the invariant and what is owed are
    not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point statement the pipeline rule asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Body1a.lean ====
import proofs.«178434_j73461120630936_2_alg».proof.Proof.Gen.KernelIdeal.Launch
import proofs.«178434_j73461120630936_2_alg».proof.Proof.Gen.KernelIdeal.Skeleton
import proofs.«178434_j73461120630936_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.RA.PCS

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The shares of the three input windows, all on one array: the left half of the full share, and the two halves of
    its right half; the output window's array is held outright. -/
def q1 : Fin cfg1.W → PosShare TreeShare
  | ⟨0, _⟩ => fullShare.left
  | ⟨1, _⟩ => fullShare.right.left
  | ⟨2, _⟩ => fullShare.right.right
  | ⟨3, _⟩ => fullShare

/-- The full share is the first window's share and the right half; the right half is the other two windows' shares. -/
theorem q1_split_outer : fullShare ∈ q1 0 ·? fullShare.right := PosShare.mem_left_op_right fullShare
theorem q1_split_inner : fullShare.right ∈ q1 1 ·? q1 2 := PosShare.mem_left_op_right fullShare.right

/-- The whole 1024x128 block: the one rectangle every load and the store of the body go through. -/
abbrev r1_0 : Rect S1024x128 := Rect.unit (s := S1024x128) ![0, 0] S1024x128.size inb_S1024x128_S1024x128_0_0

/-- What the body leaves in the output window's buffer, from the three input blocks: its one whole-block store, whose
    payload is the two heads' attention outputs side by side, rounded to bf16. -/
def out1_3 (x0 x1 x2 : Vec F S1024x128 .bf16) : Vec F S1024x128 .bf16 :=
  View.canon [⟨r1_0, k1_pay1 (k1_pay5 (View.ld x0 r1_0) (View.ld x1 r1_0) (View.ld x2 r1_0)) (k1_pay6 (View.ld x2 r1_0)) (k1_pay7 (View.ld x0 r1_0) (View.ld x1 r1_0))⟩]

/-- The proof data of the attention pipeline on core `c`: the arrays as the region finds them (`V`); after the body at
    point `t` each input's buffer at its block and the output's at `out1_3` of the three input blocks; the untouched
    scoped rest and generator register as invariant; nothing owed; the one input array split among its three windows
    by `q1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- The share each window holds its array at: the input windows their own, the output window the full share. -/
theorem share1 (c : Dev nD) : ∀ w, (dat1 V c).share w = q1 w :=
  fun | ⟨0, _⟩ => rfl | ⟨1, _⟩ => rfl | ⟨2, _⟩ => rfl | ⟨3, _⟩ => rfl

/-- The region's arrays, window by window: each is a whole buffer, the three input windows' the one buffer. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v6) ↦{q1 0} G 0) ∗ (((c : Thread nD τ).loc main_v6) ↦{q1 1} G 1)
          ∗ (((c : Thread nD τ).loc main_v6) ↦{q1 2} G 2) ∗ (((c : Thread nD τ).loc main_v7) ↦{fullShare} G 3)) := by
  unfold Dat.arrays
  rw [bigSep_W1, share1, share1, share1, share1, (arr_whole1 0).set_eq_univ, (arr_whole1 3).set_eq_univ]
  rfl

/-- The two distinct buffers behind the region's arrays. -/
theorem arrBufs1_eq (c : Dev nD) (W : (b : Ref sig .tc) → Buf (Elt F) ((c : Thread nD τ).loc b)) :
    (Pipeline.arrBufs spec1 c W : sProp 𝕄)
      = iprop((((c : Thread nD τ).loc main_v6) ↦{fullShare} W main_v6) ∗ (((c : Thread nD τ).loc main_v7) ↦{fullShare} W main_v7)) := by
  unfold Pipeline.arrBufs
  rw [bigSep_eq_bigSepL_of_eq [main_v6, main_v7] (by decide) (by decide)]
  rfl

/-- One buffer at the full share is the three input windows' shares of it, and back. -/
theorem split3 (c : Dev nD) (f : Buf (Elt F) ((c : Thread nD τ).loc main_v6)) :
    ((((c : Thread nD τ).loc main_v6) ↦{fullShare} f : sProp 𝕄))
      ⊣⊢ iprop((((c : Thread nD τ).loc main_v6) ↦{q1 0} f) ∗ (((c : Thread nD τ).loc main_v6) ↦{q1 1} f)
          ∗ (((c : Thread nD τ).loc main_v6) ↦{q1 2} f)) :=
  (pointsTo_share q1_split_outer).trans (sep_congr .rfl (pointsTo_share q1_split_inner))

/-- A core's unscoped buffers are the two buffers behind the region's arrays and the rest. -/
theorem unscopedBufs_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: a core's unscoped buffers at `V c` are the region's arrays at the proof data's entry contents — the input
    array's full share dealt to its three windows — and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [unscopedBufs_split1, arrBufs1_eq, arrays1_eq]
  refine sep_mono ?_ .rfl
  iintro ⟨H6, H7⟩
  ihave H := (split3 c (V c main_v6)).1 $$ H6
  icases H with ⟨H0, H1, H2⟩
  isplitl [H0]; · iexact H0
  isplitl [H1]; · iexact H1
  isplitl [H2]; · iexact H2
  iexact H7

/-- EXIT: the region's arrays at contents `G` and the unscoped rest at `V c` are the core's unscoped buffers at any
    `V'` that has the arrays at `G` and agrees with `V c` off them: the three windows on the input array hold it at
    one contents, so their shares rejoin to the full share. -/
theorem unscopedBufs_of_arrays1' (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c)) ⊢ (unscopedBufs c V' : sProp 𝕄) := by
  rw [unscopedBufs_split1, arrBufs1_eq, arrays1_eq, hG 0, hG 1, hG 2, hG 3]
  refine sep_mono ?_ (Entails.of_eq ?_)
  · iintro ⟨H0, H1, H2, H7⟩
    isplitr [H7]
    · iapply (split3 c (V' main_v6)).2
      isplitl [H0]; · iexact H0
      isplitl [H1]; · iexact H1
      iexact H2
    · iexact H7
  · unfold Pipeline.unscopedRest
    exact bigSep_congr fun b hb => by rw [hrest b (Finset.mem_sdiff.mp hb).2]

/-- The same at the arrays' final contents. -/
theorem unscopedBufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) :=
  unscopedBufs_of_arrays1' V c V' _ hF hrest

end Cert.KernelIdeal.Fr

end
-- ==== Proof.Body1b.lean ====
import proofs.«178434_j73461120630936_2_alg».proof.Proof.Gen.KernelIdeal.Launch
import proofs.«178434_j73461120630936_2_alg».proof.Proof.Gen.KernelIdeal.Skeleton
import proofs.«178434_j73461120630936_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178434_j73461120630936_2_alg».proof.Proof.Body1a

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.RA.PCS

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The store of the body tiles the output buffer, so it covers it. -/
theorem cover1_3 (p0 : Vec F S1024x128 .bf16) (y : S1024x128.Idx) :
    ∃ pc ∈ ([⟨r1_0, p0⟩] : List (View.Piece (Elt F) S1024x128 .bf16)), y ∈ pc.1.set :=
  View.cover_of_tiled [⟨r1_0, p0⟩] S1024x128.size (by rfl) y

set_option maxHeartbeats 1000000 in
/-- The kernel body on whole staging memrefs, the three inputs' at read contents `x0 x1 x2` and the output's at
    anything, runs to the continuation holding the inputs' as they were and the output's at `out1_3` of the inputs. -/
theorem sound_kernel1 (c : Dev nD) (E : Set ℕ) (i : grid1.Coords)
    (arg0 : Memref sig .tc .vmem S1024x128 .bf16) (harg0 : arg0.IsWhole) (arg1 : Memref sig .tc .vmem S1024x128 .bf16) (harg1 : arg1.IsWhole)
    (arg2 : Memref sig .tc .vmem S1024x128 .bf16) (harg2 : arg2.IsWhole) (arg3 : Memref sig .tc .vmem S1024x128 .bf16) (harg3 : arg3.IsWhole)
    (x0 x1 x2 : Vec F S1024x128 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Body2.lean ====
/-
  Region 2 (the second matmul-plus-bias call, the output projection), the half of its certificate that concerns the
  kernel body alone.

  The body reads three whole blocks — a 2048x768 block a of the attention output, the whole 768x768 weight w and the
  whole 1x768 bias b — and writes one whole 2048x768 block: a · w + broadcast b, where the product of the two
  bfloat16 operands is taken onto a zero single-precision matrix, the bias is added in single precision, and the
  sum is stored as it is (no truncation). What it leaves in the output block is therefore a function of the three
  input blocks at the grid point.
  This module states that function (out2_3), proves the body's triple against it, and packages the per-point
  statement the pipeline rule asks for, generically in the float model F and in the buffer contents V with which
  the region is entered.
-/
import proofs.«178434_j73461120630936_2_alg».proof.Proof.Gen.KernelIdeal.Launch
import proofs.«178434_j73461120630936_2_alg».proof.Proof.Gen.KernelIdeal.Skeleton
import proofs.«178434_j73461120630936_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window w at grid point t, cut out of that window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What an input buffer holds when the body starts

The row block of the attention output moves with the grid point and is fetched at each; the weight and the bias have
a constant block index and are fetched at the first point only. A buffer not fetched at a point keeps the block it
was given earlier, which is the current block since the index has not moved and the body does not write its inputs.
So at every point each input buffer holds its window's block there. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each one a whole buffer -/

abbrev r2_0 : Rect S2048x768 := Rect.unit (s := S2048x768) ![0, 0] S2048x768.size inb_S2048x768_S2048x768_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0
abbrev r2_3 : Rect S2048x768 := Rect.unit (s := S2048x768) ![0, 0] S2048x768.size inb_S2048x768_S2048x768_0_0

/-! ## The output block as a function of the input blocks -/

/-- What the body leaves in the output buffer: its single store, of x0 · x1 + broadcast x2, laid over the whole
    block. -/
def out2_3 (x0 : Vec F S2048x768 .bf16) (x1 : Vec F S768x768 .bf16) (x2 : Vec F S1x768 .f32) : Vec F S2048x768 .f32 :=
  View.canon [⟨r2_3, k2_pay1 (View.ld x0 r2_0) (View.ld x1 r2_1) (View.ld x2 r2_2)⟩]

/-- That one store reaches every index of the block. -/
theorem cover2_3 (p0 : Vec F S2048x768 .f32) (y : S2048x768.Idx) :
    ∃ pc ∈ ([⟨r2_3, p0⟩] : List (View.Piece (Elt F) S2048x768 .f32)), y ∈ pc.1.set :=
  View.cover_of_tiled [⟨r2_3, p0⟩] S2048x768.size (by rfl) y

/-! ## The body's triple -/

set_option maxHeartbeats 1000000 in
/-- Run on whole buffers, the inputs holding x0, x1, x2 and the output holding anything, the body hands every buffer
    back, the inputs unchanged and the output at out2_3 x0 x1 x2. It also loads the output buffer before storing;
    the value loaded is not used. -/
theorem sound_kernel2 (c : Dev nD) (E : Set ℕ) (i : grid2.Coords)
    (arg1 : Memref sig .tc .vmem S2048x768 .bf16) (harg1 : arg1.IsWhole)
    (arg2 : Memref sig .tc .vmem S768x768 .bf16) (harg2 : arg2.IsWhole)
    (arg3 : Memref sig .tc .vmem S1x768 .f32) (harg3 : arg3.IsWhole)
    (arg4 : Memref sig .tc .vmem S2048x768 .f32) (harg4 : arg4.IsWhole)
    (x0 : Vec F S2048x768 .bf16) (x1 : Vec F S768x768 .bf16) (x2 : Vec F S1x768 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data of the pipeline -/

/-- Arrays as the region finds them; after the body at point t each input buffer still at its block and the output
    buffer at out2_3 of the three input blocks; the invariant is the untouched rest; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a grid point -/

/-- What the body is entered with at point t: the invariant, what is owed, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The three input buffers hold their blocks, so the kernel's triple applies; the invariant and what is owed are
    not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point statement the pipeline rule asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Run.lean ====
/-
  The run of the kernel program from launch to return.

  @main is six items in a row: a stretch of host operations (the input laid flat, the two weight matrices transposed, the
  first bias made a row), the projection kernel, the attention kernel, one host operation (the second bias made a row), the
  output-projection kernel, and the final reshape. This module follows the contents of every buffer that outlives a kernel
  through those six items: a host stretch changes them by the operations' composed function; a kernel changes only its
  output array, to what its grid points' write-backs leave there, and leaves every other buffer as it found it (the
  attention kernel reads ONE array through three windows, each holding a part of the array's ownership while it runs, and
  hands it back whole). Each kernel is entered at the contents the previous item left. The result: every weakly fair
  execution terminates without a fault, and in the final state every such buffer holds the contents the six items compose
  to — in particular each argument array is as launched, and the result array is the reshape of what the third kernel
  left.
-/
import proofs.«178434_j73461120630936_2_alg».proof.Proof.Body0
import proofs.«178434_j73461120630936_2_alg».proof.Proof.Body1b
import proofs.«178434_j73461120630936_2_alg».proof.Proof.Body2
import proofs.«178434_j73461120630936_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch. -/
abbrev W0 : Dev nD → Valuation τ sig (Elt F) := fun c b => (s₀ m ρ).mem ((c : Dev nD), b)
/-- After the first host stretch: the projection kernel is entered here. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention kernel: only its output array changes, to what its write-backs leave; the array its three input
    windows read is as entered. -/
def W3 (c : Dev nD) : Valuation τ sig (Elt F) :=
  Function.update (W2 m ρ c) (Proc.devRef .tc main_v7) ((dat1 (V2 m ρ) c).arrAt 3 cfg1.N)
theorem W3_v7 (c : Dev nD) : W3 m ρ c (Proc.devRef .tc main_v7) = (dat1 (V2 m ρ) c).arrAt 3 cfg1.N := by
  unfold W3; exact Function.update_self _ _ _
theorem W3_of_ne (c : Dev nD) (b : Ref sig .tc) (hb : b ≠ main_v7) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c main_v6 (by decide)).symm
  | ⟨1, _⟩ => exact (((dat1 (V2 m ρ) c).arrAt_in 1 rfl _).trans (A_eq1 (V2 m ρ) c 1)).trans (W3_of_ne m ρ c main_v6 (by decide)).symm
  | ⟨2, _⟩ => exact (((dat1 (V2 m ρ) c).arrAt_in 2 rfl _).trans (A_eq1 (V2 m ρ) c 2)).trans (W3_of_ne m ρ c main_v6 (by decide)).symm
  | ⟨3, _⟩ => exact (W3_v7 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-- After the one host operation between the last two kernels: the output projection is entered here. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After the output-projection kernel. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the final reshape: what the launch reads at the end. -/
abbrev W6 : Dev nD → Valuation τ sig (Elt F) := fun c => StableHlo.after hostOps3 (W5 m ρ c)

/-! ## The proof data family and what rides beside the buffers -/

abbrev adm : (p : Fin 3) → (pcfgs (F := F) p).Adm := fun p => (cfgs p).toPCfg_adm
/-- Each kernel's proof data at the contents it is entered at. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer that outlives a kernel at the final contents. -/
abbrev Tₙ (c : Dev nD) : sProp 𝕄 := iprop(StableHlo.held (c : Thread nD τ) (Pipeline.ucRefs τ sig) (W6 m ρ c) ∗ ∃ r, prngReg c r)

/-! ## The kernels as items -/

set_option backward.isDefEq.respectTransparency.types false in
/-- The projection kernel: entered from every buffer at `W1`, left at `W2`. Its four arrays are distinct buffers, split
    out of the thread state whole and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every buffer at `W2`, left at `W3`. Three of its windows read one array: at entry
    that array's ownership is dealt among them, at exit it is put together again, its contents unchanged. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) :=
      arrays1_of_unscopedBufs (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs c (V3 m ρ c) : sProp 𝕄) :=
      unscopedBufs_of_arrays1 (F := F) (V2 m ρ) c (V3 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-projection kernel: entered from every buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six items, and the run -/

/-- The last host stretch ends at `W6` beside the register; what is owed is kept apart, as the launch reads the end. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state each buffer that outlives a kernel holds the contents the six items compose to. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Fr

end
-- ==== Proof.Frame.lean ====
/-
  The frame of the kernel program: it runs to the end without a fault and every argument array ends as launched.

  No host operation writes an argument array (each writes a fresh buffer), and a kernel changes only its own output array,
  which is no argument; so following an argument's buffer back through @main's six items reaches the launch memory.
-/
import proofs.«178434_j73461120630936_2_alg».proof.Proof.Run

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## No item writes an argument array -/

theorem W6_arg (c : Dev nD) (r : Ref sig .tc) (h0 : r ∉ hostOps0_W) (h2 : r ∉ hostOps2_W) (h3 : r ∉ hostOps3_W)
    (ha0 : ∀ w, Pipeline.arrRef spec0 w ≠ r) (h7 : r ≠ main_v7) (ha2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := StableHlo.after_of_writes_sub hostOps3 _ hostOps3_writes h3
    _ = W4 m ρ c (Proc.devRef .tc r) := W5_of_ne m ρ c r ha2
    _ = W3 m ρ c (Proc.devRef .tc r) := StableHlo.after_of_writes_sub hostOps2 _ hostOps2_writes h2
    _ = W2 m ρ c (Proc.devRef .tc r) := W3_of_ne m ρ c r h7
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W6_main_arg0 (c : Dev nD) : W6 m ρ c (Proc.devRef .tc main_arg0) = m ((c : Thread nD τ).loc main_arg0) :=
  W6_arg m ρ c main_arg0 (by decide) (by decide) (by decide) (by decide) (by decide) (by decide)
theorem W6_main_arg1 (c : Dev nD) : W6 m ρ c (Proc.devRef .tc main_arg1) = m ((c : Thread nD τ).loc main_arg1) :=
  W6_arg m ρ c main_arg1 (by decide) (by decide) (by decide) (by decide) (by decide) (by decide)
theorem W6_main_arg2 (c : Dev nD) : W6 m ρ c (Proc.devRef .tc main_arg2) = m ((c : Thread nD τ).loc main_arg2) :=
  W6_arg m ρ c main_arg2 (by decide) (by decide) (by decide) (by decide) (by decide) (by decide)
theorem W6_main_arg3 (c : Dev nD) : W6 m ρ c (Proc.devRef .tc main_arg3) = m ((c : Thread nD τ).loc main_arg3) :=
  W6_arg m ρ c main_arg3 (by decide) (by decide) (by decide) (by decide) (by decide) (by decide)
theorem W6_main_arg4 (c : Dev nD) : W6 m ρ c (Proc.devRef .tc main_arg4) = m ((c : Thread nD τ).loc main_arg4) :=
  W6_arg m ρ c main_arg4 (by decide) (by decide) (by decide) (by decide) (by decide) (by decide)

/-- THE FRAME: every weakly fair execution terminates without a fault and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩)
    (run_main m ρ)

end Cert.KernelIdeal.Fr

end
-- ==== Proof.Arr0.lean ====
/-
  The projection kernel's output as one function of the arrays it is handed.

  The kernel runs over four grid points; point `t` reads rows `2048·t … 2048·t + 2047` of the flat input, the whole weight
  matrix and the whole bias row, and writes rows `2048·t …` of the output. So entry `(r, c)` of the output is the body's
  result, at row `r % 2048` and column `c`, computed from the block of input rows that contains `r`: that is `G0`. What
  point `t` writes back is `G0` read through the point's block (only index arithmetic: a block's coordinate is its index
  times its size plus the coordinate inside), and the four blocks tile the output, so after the kernel the output array
  is `G0` everywhere.
-/
import proofs.«178434_j73461120630936_2_alg».proof.Proof.Body0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 4 :=
  (by decide +kernel : ∀ t : Fin grid0.N, _)

/-- Rows 2048·t … of the flat input. -/
def rowsOf0 (X : S8192x768.Idx → Elt F .f32) (r : Nat) : Vec F S2048x768 .f32 :=
  fun y => X (ix2 (⟨(2048 * (r / 2048) + (y 0).val) % 8192, Nat.mod_lt _ (by decide)⟩ : Fin 8192) (y 1))

def G0 (X : S8192x768.Idx → Elt F .f32) (Wm : S768x2304.Idx → Elt F .bf16) (B : S1x2304.Idx → Elt F .f32) :
    S8192x2304.Idx → Elt F .bf16 :=
  fun i => k0_pay1 (rowsOf0 X (i 0).val) Wm B (ix2 (⟨(i 0).val % 2048, Nat.mod_lt _ (by decide)⟩ : Fin 2048) (i 1))

theorem flushed0_eq (c : Dev nD) (t : Fin cfg0.N) :
    (dat0 V c).flushed 3 t = ((cfg0.win 3).blk t).view.read (Elt F) (G0 (V c main_v0) (V c main_v2) (V c main_v5)) := by
  show (cfg0.win 3).cut (grid0.coords t) ((dat0 V c).after 3 t) = _
  rw [after0_3]
  unfold out0_3
  rw [View.canon_unit_zero hz]
  simp only [View.ld_unit_zero (S := S2048x768) hz, View.ld_unit_zero (S := S768x2304) hz, View.ld_unit_zero (S := S1x2304) hz]
  obtain ⟨e0, e1, e2, e3, e4, e5, e6, e7, e8⟩ := idx_facts0 t
  funext j
  show k0_pay1 (iblk0 V c 0 t) (iblk0 V c 1 t) (iblk0 V c 2 t) j
    = G0 (V c main_v0) (V c main_v2) (V c main_v5) (((cfg0.win 3).blk t).view.emb j)
  unfold G0
  have hj0 : (j 0).val < 2048 := (j 0).isLt
  have hj1 : (j 1).val < 2304 := (j 1).isLt
  have hemb0 : ((((cfg0.win 3).blk t).view.emb j) 0).val = t.val * 2048 + (j 0).val := by
    show win0_3.index t (0 : Fin 2) * 2048 + 1 * (j 0).val = _; omega
  have hemb1 : ((((cfg0.win 3).blk t).view.emb j) 1).val = (j 1).val := by
    show win0_3.index t (1 : Fin 2) * 2304 + 1 * (j 1).val = _; omega
  have a0 : iblk0 V c 0 t = rowsOf0 (V c main_v0) ((((cfg0.win 3).blk t).view.emb j) 0).val := by
    funext y
    have hy0 : (y 0).val < 2048 := (y 0).isLt
    unfold iblk0 rowsOf0
    rw [View.read_apply]
    show V c main_v0 (((cfg0.win 0).blk t).view.emb y) = V c main_v0 _
    congr 1
    funext a; apply Fin.ext
    match a with
    | ⟨0, _⟩ => show win0_0.index t (0 : Fin 2) * 2048 + 1 * (y 0).val = (2048 * (((((cfg0.win 3).blk t).view.emb j) 0).val / 2048) + (y 0).val) % 8192; rw [hemb0]; omega
    | ⟨1, _⟩ => show win0_0.index t (1 : Fin 2) * 768 + 1 * (y 1).val = (y 1).val; omega
  have a1 : iblk0 V c 1 t = V c main_v2 := by
    funext y
    unfold iblk0
    rw [View.read_apply]
    show V c main_v2 (((cfg0.win 1).blk t).view.emb y) = V c main_v2 y
    congr 1
    funext a; apply Fin.ext
    match a with
    | ⟨0, _⟩ => show win0_1.index t (0 : Fin 2) * 768 + 1 * (y 0).val = (y 0).val; omega
    | ⟨1, _⟩ => show win0_1.index t (1 : Fin 2) * 2304 + 1 * (y 1).val = (y 1).val; omega
  have a2 : iblk0 V c 2 t = V c main_v5 := by
    funext y
    unfold iblk0
    rw [View.read_apply]
    show V c main_v5 (((cfg0.win 2).blk t).view.emb y) = V c main_v5 y
    congr 1
    funext a; apply Fin.ext
    match a with
    | ⟨0, _⟩ => show win0_2.index t (0 : Fin 2) * 1 + 1 * (y 0).val = (y 0).val; omega
    | ⟨1, _⟩ => show win0_2.index t (1 : Fin 2) * 2304 + 1 * (y 1).val = (y 1).val; omega
  rw [a0, a1, a2]
  congr 1
  funext a; apply Fin.ext
  match a with
  | ⟨0, _⟩ => show (j 0).val = ((((cfg0.win 3).blk t).view.emb j) 0).val % 2048; rw [hemb0]; omega
  | ⟨1, _⟩ => exact hemb1.symm

/-- An index of the output array lies in point `t`'s block iff each coordinate lies in the block's range on its axis. -/
theorem mem_blk0 (t : Fin cfg0.N) (i : S8192x2304.Idx) :
    i ∈ ((cfg0.win 3).blk t).view.set ↔ ∀ a : Fin 2, win0_3.index t a * S2048x2304.size a ≤ (i a).val ∧ (i a).val < win0_3.index t a * S2048x2304.size a + S2048x2304.size a := by
  show i ∈ ((View.whole main_v6).slice (win0_3.rect t)).set ↔ _
  rw [View.set_slice_whole, Rect.mem_set_unit]
  exact Iff.rfl

/-- Every block of rows is some point's. -/
theorem idx_onto0 : ∀ q0 : Fin 4, ∃ t : Fin cfg0.N, win0_3.index t = ![q0.val, 0] :=
  (by decide +kernel : ∀ q0 : Fin 4, ∃ t : Fin grid0.N, win0_3.index t = ![q0.val, 0])

/-- The projected matrix after the kernel: the four row blocks tile it, so it is `G0` of the arrays the kernel found. -/
theorem final0 (c : Dev nD) : (dat0 V c).arrAt 3 cfg0.N = G0 (V c main_v0) (V c main_v2) (V c main_v5) :=
  (dat0 V c).arrAt_eq_of_cover 3 _ (fun t _ => flushed0_eq V c t) fun i => by
    have hi0 : (i 0).val < 8192 := (i 0).isLt
    have hi1 : (i 1).val < 2304 := (i 1).isLt
    obtain ⟨t, ht⟩ := idx_onto0 ⟨(i 0).val / 2048, by omega⟩
    have q0 : win0_3.index t (0 : Fin 2) = (i 0).val / 2048 := congrFun ht 0
    have q1 : win0_3.index t (1 : Fin 2) = 0 := congrFun ht 1
    refine ⟨t, flush0_3 t, ?_⟩
    rw [mem_blk0]
    intro a
    match a with
    | ⟨0, _⟩ => show win0_3.index t (0 : Fin 2) * 2048 ≤ (i 0).val ∧ (i 0).val < win0_3.index t (0 : Fin 2) * 2048 + 2048; omega
    | ⟨1, _⟩ => show win0_3.index t (1 : Fin 2) * 2304 ≤ (i 1).val ∧ (i 1).val < win0_3.index t (1 : Fin 2) * 2304 + 2304; omega

end Cert.KernelIdeal.Fr
end
-- ==== Proof.Arr1.lean ====
/-
  The attention call's result as one function of the one array it reads.

  The call runs over an 8 x 6 grid; point t has coordinates (b, p) = (t / 6, t % 6). Its three input windows all look
  at the same 8192x2304 array Q (queries, keys and values side by side, 768 columns each), through 1024x128 blocks at
  block positions (b, p), (b, p + 6) and (b, p + 12); its output window is the 1024x128 block (b, p) of the 8192x768
  result. Entry (r, c) of the result is therefore the body's value at (r % 1024, c % 128), computed from the three
  blocks of Q at block row r / 1024 and block columns c / 128, c / 128 + 6, c / 128 + 12: this is G1. What point t
  writes back is G1 seen through the point's block (index arithmetic only), and the 48 blocks tile the result, so
  after the call the result array is G1 of Q.
-/
import proofs.«178434_j73461120630936_2_alg».proof.Proof.Body1a
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The origin of a two-axis rectangle, as a constant function. -/
theorem hz1 : (![0, 0] : Fin 2 → Nat) = fun _ => 0 := funext fun a => by fin_cases a <;> rfl

/-- The block index of every window at every grid point: all four at block row t / 6; the three inputs at block
    columns t % 6, t % 6 + 6, t % 6 + 12 of the one input array, the output at block column t % 6. -/
theorem idx_facts1 : ∀ t : Fin cfg1.N, win1_0.index t (0 : Fin 2) = t.val / 6 ∧ win1_0.index t (1 : Fin 2) = t.val % 6
    ∧ win1_1.index t (0 : Fin 2) = t.val / 6 ∧ win1_1.index t (1 : Fin 2) = t.val % 6 + 6
    ∧ win1_2.index t (0 : Fin 2) = t.val / 6 ∧ win1_2.index t (1 : Fin 2) = t.val % 6 + 12
    ∧ win1_3.index t (0 : Fin 2) = t.val / 6 ∧ win1_3.index t (1 : Fin 2) = t.val % 6 ∧ t.val < 48 :=
  (by decide +kernel : ∀ t : Fin grid1.N, _)

/-- The 1024x128 block of Q at block row rb and block column cb. -/
def blockOf1 (Q : S8192x2304.Idx → Elt F .bf16) (rb cb : Nat) : Vec F S1024x128 .bf16 :=
  fun y => Q (ix2 (⟨(1024 * rb + (y 0).val) % 8192, Nat.mod_lt _ (by decide)⟩ : Fin 8192)
    (⟨(128 * cb + (y 1).val) % 2304, Nat.mod_lt _ (by decide)⟩ : Fin 2304))

/-- The whole result: at (r, c) the body's value at (r % 1024, c % 128) on the query, key and value blocks of block
    row r / 1024 and block columns c / 128, c / 128 + 6, c / 128 + 12. -/
def G1 (Q : S8192x2304.Idx → Elt F .bf16) : S8192x768.Idx → Elt F .bf16 :=
  fun i =>
    k1_pay1
      (k1_pay5 (blockOf1 Q ((i 0).val / 1024) ((i 1).val / 128)) (blockOf1 Q ((i 0).val / 1024) ((i 1).val / 128 + 6))
        (blockOf1 Q ((i 0).val / 1024) ((i 1).val / 128 + 12)))
      (k1_pay6 (blockOf1 Q ((i 0).val / 1024) ((i 1).val / 128 + 12)))
      (k1_pay7 (blockOf1 Q ((i 0).val / 1024) ((i 1).val / 128)) (blockOf1 Q ((i 0).val / 1024) ((i 1).val / 128 + 6)))
      (ix2 (⟨(i 0).val % 1024, Nat.mod_lt _ (by decide)⟩ : Fin 1024) (⟨(i 1).val % 128, Nat.mod_lt _ (by decide)⟩ : Fin 128))

/-- What point t writes back is G1 seen through the point's block. -/
theorem flushed1_eq (c : Dev nD) (t : Fin cfg1.N) :
    (dat1 V c).flushed 3 t = ((cfg1.win 3).blk t).view.read (Elt F) (G1 (V c main_v6)) := by
  show (cfg1.win 3).cut (grid1.coords t) ((dat1 V c).after 3 t) = _
  rw [after1_3]
  unfold out1_3
  rw [View.canon_unit_zero hz1]
  simp only [View.ld_unit_zero (S := S1024x128) hz1]
  obtain ⟨e0, e1, e2, e3, e4, e5, e6, e7, e8⟩ := idx_facts1 t
  funext j
  show k1_pay1 (k1_pay5 (iblk1 V c 0 t) (iblk1 V c 1 t) (iblk1 V c 2 t)) (k1_pay6 (iblk1 V c 2 t))
      (k1_pay7 (iblk1 V c 0 t) (iblk1 V c 1 t)) j
    = G1 (V c main_v6) (((cfg1.win 3).blk t).view.emb j)
  unfold G1
  have hj0 : (j 0).val < 1024 := (j 0).isLt
  have hj1 : (j 1).val < 128 := (j 1).isLt
  have hemb0 : ((((cfg1.win 3).blk t).view.emb j) 0).val = t.val / 6 * 1024 + (j 0).val := by
    show win1_3.index t (0 : Fin 2) * 1024 + 1 * (j 0).val = _; omega
  have hemb1 : ((((cfg1.win 3).blk t).view.emb j) 1).val = t.val % 6 * 128 + (j 1).val := by
    show win1_3.index t (1 : Fin 2) * 128 + 1 * (j 1).val = _; omega
  have a0 : iblk1 V c 0 t = blockOf1 (V c main_v6) (((((cfg1.win 3).blk t).view.emb j) 0).val / 1024)
      (((((cfg1.win 3).blk t).view.emb j) 1).val / 128) := by
    funext y
    have hy0 : (y 0).val < 1024 := (y 0).isLt
    have hy1 : (y 1).val < 128 := (y 1).isLt
    unfold iblk1 blockOf1
    rw [View.read_apply]
    show V c main_v6 (((cfg1.win 0).blk t).view.emb y) = V c main_v6 _
    congr 1
    funext a; apply Fin.ext
    match a with
    | ⟨0, _⟩ => show win1_0.index t (0 : Fin 2) * 1024 + 1 * (y 0).val = (1024 * (((((cfg1.win 3).blk t).view.emb j) 0).val / 1024) + (y 0).val) % 8192; rw [hemb0]; omega
    | ⟨1, _⟩ => show win1_0.index t (1 : Fin 2) * 128 + 1 * (y 1).val = (128 * (((((cfg1.win 3).blk t).view.emb j) 1).val / 128) + (y 1).val) % 2304; rw [hemb1]; omega
  have a1 : iblk1 V c 1 t = blockOf1 (V c main_v6) (((((cfg1.win 3).blk t).view.emb j) 0).val / 1024)
      (((((cfg1.win 3).blk t).view.emb j) 1).val / 128 + 6) := by
    funext y
    have hy0 : (y 0).val < 1024 := (y 0).isLt
    have hy1 : (y 1).val < 128 := (y 1).isLt
    unfold iblk1 blockOf1
    rw [View.read_apply]
    show V c main_v6 (((cfg1.win 1).blk t).view.emb y) = V c main_v6 _
    congr 1
    funext a; apply Fin.ext
    match a with
    | ⟨0, _⟩ => show win1_1.index t (0 : Fin 2) * 1024 + 1 * (y 0).val = (1024 * (((((cfg1.win 3).blk t).view.emb j) 0).val / 1024) + (y 0).val) % 8192; rw [hemb0]; omega
    | ⟨1, _⟩ => show win1_1.index t (1 : Fin 2) * 128 + 1 * (y 1).val = (128 * (((((cfg1.win 3).blk t).view.emb j) 1).val / 128 + 6) + (y 1).val) % 2304; rw [hemb1]; omega
  have a2 : iblk1 V c 2 t = blockOf1 (V c main_v6) (((((cfg1.win 3).blk t).view.emb j) 0).val / 1024)
      (((((cfg1.win 3).blk t).view.emb j) 1).val / 128 + 12) := by
    funext y
    have hy0 : (y 0).val < 1024 := (y 0).isLt
    have hy1 : (y 1).val < 128 := (y 1).isLt
    unfold iblk1 blockOf1
    rw [View.read_apply]
    show V c main_v6 (((cfg1.win 2).blk t).view.emb y) = V c main_v6 _
    congr 1
    funext a; apply Fin.ext
    match a with
    | ⟨0, _⟩ => show win1_2.index t (0 : Fin 2) * 1024 + 1 * (y 0).val = (1024 * (((((cfg1.win 3).blk t).view.emb j) 0).val / 1024) + (y 0).val) % 8192; rw [hemb0]; omega
    | ⟨1, _⟩ => show win1_2.index t (1 : Fin 2) * 128 + 1 * (y 1).val = (128 * (((((cfg1.win 3).blk t).view.emb j) 1).val / 128 + 12) + (y 1).val) % 2304; rw [hemb1]; omega
  rw [a0, a1, a2]
  congr 1
  funext a; apply Fin.ext
  match a with
  | ⟨0, _⟩ => show (j 0).val = ((((cfg1.win 3).blk t).view.emb j) 0).val % 1024; rw [hemb0]; omega
  | ⟨1, _⟩ => show (j 1).val = ((((cfg1.win 3).blk t).view.emb j) 1).val % 128; rw [hemb1]; omega

/-- An index of the result lies in point t's block iff each coordinate lies in the block's range on its axis. -/
theorem mem_blk1 (t : Fin cfg1.N) (i : S8192x768.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v7).slice (win1_3.rect t)).set ↔ _
  rw [View.set_slice_whole, Rect.mem_set_unit]
  exact Iff.rfl

/-- Every block of the result is some point's. -/
theorem idx_onto1 : ∀ (q0 : Fin 8) (q1 : Fin 6), ∃ t : Fin cfg1.N, win1_3.index t = ![q0.val, q1.val] :=
  (by decide +kernel : ∀ (q0 : Fin 8) (q1 : Fin 6), ∃ t : Fin grid1.N, win1_3.index t = ![q0.val, q1.val])

/-- The result after the call: the 48 blocks tile it, so it is G1 of the array the call found. -/
theorem final1 (c : Dev nD) : (dat1 V c).arrAt 3 cfg1.N = G1 (V c main_v6) :=
  (dat1 V c).arrAt_eq_of_cover 3 _ (fun t _ => flushed1_eq V c t) fun i => by
    have hi0 : (i 0).val < 8192 := (i 0).isLt
    have hi1 : (i 1).val < 768 := (i 1).isLt
    obtain ⟨t, ht⟩ := idx_onto1 ⟨(i 0).val / 1024, by omega⟩ ⟨(i 1).val / 128, by omega⟩
    have q0 : win1_3.index t (0 : Fin 2) = (i 0).val / 1024 := congrFun ht 0
    have q1 : win1_3.index t (1 : Fin 2) = (i 1).val / 128 := congrFun ht 1
    refine ⟨t, flush1_3 t, ?_⟩
    rw [mem_blk1]
    intro a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 128 ≤ (i 1).val ∧ (i 1).val < win1_3.index t (1 : Fin 2) * 128 + 128; omega

end Cert.KernelIdeal.Fr
end
-- ==== Proof.Arr2.lean ====
/-
  The output projection's result as one function of the arrays it is handed.

  The call runs over four grid points. Point t reads rows 2048·t … 2048·t + 2047 of the attention output, the whole
  768x768 weight and the whole bias row, and writes rows 2048·t … of the result. Entry (r, c) of the result is thus
  the body's value at row r % 2048 and column c, computed from the block of input rows containing r: this is G2.
  What point t writes back is G2 read through that point's block — a block's coordinate is its index times its
  size plus the coordinate inside, so only index arithmetic is involved — and the four row blocks tile the result,
  so after the call the result array is G2 everywhere.
-/
import proofs.«178434_j73461120630936_2_alg».proof.Proof.Body2
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The origin of a two-axis rectangle, as a constant function. -/
theorem hz2 : (![0, 0] : Fin 2 → Nat) = fun _ => 0 := funext fun a => by fin_cases a <;> rfl

/-- The block index of every window at every grid point: the row block moves with the point, the weight and the
    bias stay at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 4 :=
  (by decide +kernel : ∀ t : Fin grid2.N, _)

/-- The block of 2048 rows of X that contains row r. -/
def rowsOf2 (X : S8192x768.Idx → Elt F .bf16) (r : Nat) : Vec F S2048x768 .bf16 :=
  fun y => X (ix2 (⟨(2048 * (r / 2048) + (y 0).val) % 8192, Nat.mod_lt _ (by decide)⟩ : Fin 8192) (y 1))

/-- The whole result: at (r, c) the body's value at (r % 2048, c) on the row block containing r. -/
def G2 (X : S8192x768.Idx → Elt F .bf16) (Wm : S768x768.Idx → Elt F .bf16) (B : S1x768.Idx → Elt F .f32) :
    S8192x768.Idx → Elt F .f32 :=
  fun i => k2_pay1 (rowsOf2 X (i 0).val) Wm B (ix2 (⟨(i 0).val % 2048, Nat.mod_lt _ (by decide)⟩ : Fin 2048) (i 1))

/-- What point t writes back is G2 seen through the point's block. -/
theorem flushed2_eq (c : Dev nD) (t : Fin cfg2.N) :
    (dat2 V c).flushed 3 t = ((cfg2.win 3).blk t).view.read (Elt F) (G2 (V c main_v7) (V c main_v4) (V c main_v8)) := by
  show (cfg2.win 3).cut (grid2.coords t) ((dat2 V c).after 3 t) = _
  rw [after2_3]
  unfold out2_3
  rw [View.canon_unit_zero hz2]
  simp only [View.ld_unit_zero (S := S2048x768) hz2, View.ld_unit_zero (S := S768x768) hz2, View.ld_unit_zero (S := S1x768) hz2]
  obtain ⟨e0, e1, e2, e3, e4, e5, e6, e7, e8⟩ := idx_facts2 t
  funext j
  show k2_pay1 (iblk2 V c 0 t) (iblk2 V c 1 t) (iblk2 V c 2 t) j
    = G2 (V c main_v7) (V c main_v4) (V c main_v8) (((cfg2.win 3).blk t).view.emb j)
  unfold G2
  have hj0 : (j 0).val < 2048 := (j 0).isLt
  have hj1 : (j 1).val < 768 := (j 1).isLt
  have hemb0 : ((((cfg2.win 3).blk t).view.emb j) 0).val = t.val * 2048 + (j 0).val := by
    show win2_3.index t (0 : Fin 2) * 2048 + 1 * (j 0).val = _; omega
  have hemb1 : ((((cfg2.win 3).blk t).view.emb j) 1).val = (j 1).val := by
    show win2_3.index t (1 : Fin 2) * 768 + 1 * (j 1).val = _; omega
  have a0 : iblk2 V c 0 t = rowsOf2 (V c main_v7) ((((cfg2.win 3).blk t).view.emb j) 0).val := by
    funext y
    have hy0 : (y 0).val < 2048 := (y 0).isLt
    unfold iblk2 rowsOf2
    rw [View.read_apply]
    show V c main_v7 (((cfg2.win 0).blk t).view.emb y) = V c main_v7 _
    congr 1
    funext a; apply Fin.ext
    match a with
    | ⟨0, _⟩ => show win2_0.index t (0 : Fin 2) * 2048 + 1 * (y 0).val = (2048 * (((((cfg2.win 3).blk t).view.emb j) 0).val / 2048) + (y 0).val) % 8192; rw [hemb0]; omega
    | ⟨1, _⟩ => show win2_0.index t (1 : Fin 2) * 768 + 1 * (y 1).val = (y 1).val; omega
  have a1 : iblk2 V c 1 t = V c main_v4 := by
    funext y
    unfold iblk2
    rw [View.read_apply]
    show V c main_v4 (((cfg2.win 1).blk t).view.emb y) = V c main_v4 y
    congr 1
    funext a; apply Fin.ext
    match a with
    | ⟨0, _⟩ => show win2_1.index t (0 : Fin 2) * 768 + 1 * (y 0).val = (y 0).val; omega
    | ⟨1, _⟩ => show win2_1.index t (1 : Fin 2) * 768 + 1 * (y 1).val = (y 1).val; omega
  have a2 : iblk2 V c 2 t = V c main_v8 := by
    funext y
    unfold iblk2
    rw [View.read_apply]
    show V c main_v8 (((cfg2.win 2).blk t).view.emb y) = V c main_v8 y
    congr 1
    funext a; apply Fin.ext
    match a with
    | ⟨0, _⟩ => show win2_2.index t (0 : Fin 2) * 1 + 1 * (y 0).val = (y 0).val; omega
    | ⟨1, _⟩ => show win2_2.index t (1 : Fin 2) * 768 + 1 * (y 1).val = (y 1).val; omega
  rw [a0, a1, a2]
  congr 1
  funext a; apply Fin.ext
  match a with
  | ⟨0, _⟩ => show (j 0).val = ((((cfg2.win 3).blk t).view.emb j) 0).val % 2048; rw [hemb0]; omega
  | ⟨1, _⟩ => exact hemb1.symm

/-- An index of the result lies in point t's block iff each coordinate lies in the block's range on its axis. -/
theorem mem_blk2 (t : Fin cfg2.N) (i : S8192x768.Idx) :
    i ∈ ((cfg2.win 3).blk t).view.set ↔ ∀ a : Fin 2, win2_3.index t a * S2048x768.size a ≤ (i a).val ∧ (i a).val < win2_3.index t a * S2048x768.size a + S2048x768.size a := by
  show i ∈ ((View.whole main_v9).slice (win2_3.rect t)).set ↔ _
  rw [View.set_slice_whole, Rect.mem_set_unit]
  exact Iff.rfl

/-- Every block of rows is some point's. -/
theorem idx_onto2 : ∀ q0 : Fin 4, ∃ t : Fin cfg2.N, win2_3.index t = ![q0.val, 0] :=
  (by decide +kernel : ∀ q0 : Fin 4, ∃ t : Fin grid2.N, win2_3.index t = ![q0.val, 0])

/-- The result after the call: the four row blocks tile it, so it is G2 of the arrays the call found. -/
theorem final2 (c : Dev nD) : (dat2 V c).arrAt 3 cfg2.N = G2 (V c main_v7) (V c main_v4) (V c main_v8) :=
  (dat2 V c).arrAt_eq_of_cover 3 _ (fun t _ => flushed2_eq V c t) fun i => by
    have hi0 : (i 0).val < 8192 := (i 0).isLt
    have hi1 : (i 1).val < 768 := (i 1).isLt
    obtain ⟨t, ht⟩ := idx_onto2 ⟨(i 0).val / 2048, by omega⟩
    have q0 : win2_3.index t (0 : Fin 2) = (i 0).val / 2048 := congrFun ht 0
    have q1 : win2_3.index t (1 : Fin 2) = 0 := congrFun ht 1
    refine ⟨t, flush2_3 t, ?_⟩
    rw [mem_blk2]
    intro a
    match a with
    | ⟨0, _⟩ => show win2_3.index t (0 : Fin 2) * 2048 ≤ (i 0).val ∧ (i 0).val < win2_3.index t (0 : Fin 2) * 2048 + 2048; omega
    | ⟨1, _⟩ => show win2_3.index t (1 : Fin 2) * 768 ≤ (i 1).val ∧ (i 1).val < win2_3.index t (1 : Fin 2) * 768 + 768; omega

end Cert.KernelIdeal.Fr
end
-- ==== Proof.HostOps.lean ====
/-
  What the host operations around the kernels leave in the buffers they write, from any contents before them.

  The first stretch lays the input flat (8 × 32 × 32 × 768 to 8192 × 768, same row-major order), transposes each weight
  matrix (output-major to input-major) and changes its float format, and makes the first bias a one-row matrix; the
  operation between the last two kernels makes the second bias a one-row matrix; the last operation folds the 8192 × 768
  result back to 8 × 32 × 32 × 768. Each is read off the stretch's composed function by evaluating the operations in order.
-/
import proofs.«178434_j73461120630936_2_alg».proof.Proof.Gen.KernelIdeal.Launch
import Idealize.ShloMosaic.Lib.StableHlo.Run

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable {F : FTy → Type} [FloatOps F]
variable (W : Valuation τ sig (Elt F))

theorem host0_v0 : (StableHlo.after hostOps0 W (Proc.devRef .tc main_v0) : S8192x768.Idx → Elt F .f32)
    = shapeCast S8192x768 (W (Proc.devRef .tc main_arg0) : S8x32x32x768.Idx → Elt F .f32) shapeCasts_S8x32x32x768_S8192x768 := by
  after_results <;> rfl

theorem host0_v2 : (StableHlo.after hostOps0 W (Proc.devRef .tc main_v2) : S768x2304.Idx → Elt F .bf16)
    = truncf .bf16 (transpose S768x2304 [1, 0] (W (Proc.devRef .tc main_arg1) : S2304x768.Idx → Elt F .f32) transposes_S2304x768_S768x2304_1_0) bitsLt_bf16_f32 := by
  after_results <;> rfl

theorem host0_v4 : (StableHlo.after hostOps0 W (Proc.devRef .tc main_v4) : S768x768.Idx → Elt F .bf16)
    = truncf .bf16 (transpose S768x768 [1, 0] (W (Proc.devRef .tc main_arg3) : S768x768.Idx → Elt F .f32) transposes_S768x768_S768x768_1_0) bitsLt_bf16_f32 := by
  after_results <;> rfl

theorem host0_v5 : (StableHlo.after hostOps0 W (Proc.devRef .tc main_v5) : S1x2304.Idx → Elt F .f32)
    = shapeCast S1x2304 (W (Proc.devRef .tc main_arg2) : S2304.Idx → Elt F .f32) shapeCasts_S2304_S1x2304 := by
  after_results <;> rfl

theorem host2_v8 : (StableHlo.after hostOps2 W (Proc.devRef .tc main_v8) : S1x768.Idx → Elt F .f32)
    = shapeCast S1x768 (W (Proc.devRef .tc main_arg4) : S768.Idx → Elt F .f32) shapeCasts_S768_S1x768 := by
  after_results <;> rfl

theorem host3_v10 : (StableHlo.after hostOps3 W (Proc.devRef .tc main_v10) : S8x32x32x768.Idx → Elt F .f32)
    = shapeCast S8x32x32x768 (W (Proc.devRef .tc main_v9) : S8192x768.Idx → Elt F .f32) shapeCasts_S8192x768_S8x32x32x768 := by
  after_results <;> rfl

end Cert.KernelIdeal.Fr
end
-- ==== Proof.KernelRun.lean ====
/-
  The kernel program's result array and its argument arrays after the run, as functions of the arguments.

  Following the contents of the buffers through @main's six items: the first host stretch hands the projection kernel
  the input laid flat, the transposed first weight matrix and the first bias as a row; that kernel leaves `G0` of them;
  the attention kernel reads that array through three windows and leaves `G1` of it; the output projection is handed that,
  the transposed second weight matrix and the second bias as a row, and leaves `G2` of them; the last reshape folds the
  result back to 8 × 32 × 32 × 768. No item writes an argument array, so each is as launched.
-/
import proofs.«178434_j73461120630936_2_alg».proof.Proof.Frame
import proofs.«178434_j73461120630936_2_alg».proof.Proof.Arr0
import proofs.«178434_j73461120630936_2_alg».proof.Proof.Arr1
import proofs.«178434_j73461120630936_2_alg».proof.Proof.Arr2
import proofs.«178434_j73461120630936_2_alg».proof.Proof.HostOps

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable {F : FTy → Type} [FloatOps F]

/-- The result of the kernel program as one function of its five arguments: project, attend, project, each kernel's
    whole output array applied to the previous one's, through the host's reshapes and transposes. -/
def KV (x : S8x32x32x768.Idx → Elt F .f32) (wq : S2304x768.Idx → Elt F .f32) (bq : S2304.Idx → Elt F .f32)
    (wp : S768x768.Idx → Elt F .f32) (bp : S768.Idx → Elt F .f32) : S8x32x32x768.Idx → Elt F .f32 :=
  shapeCast S8x32x32x768
    (G2 (G1 (G0 (shapeCast S8192x768 x shapeCasts_S8x32x32x768_S8192x768)
              (truncf .bf16 (transpose S768x2304 [1, 0] wq transposes_S2304x768_S768x2304_1_0) bitsLt_bf16_f32)
              (shapeCast S1x2304 bq shapeCasts_S2304_S1x2304)))
        (truncf .bf16 (transpose S768x768 [1, 0] wp transposes_S768x768_S768x768_1_0) bitsLt_bf16_f32)
        (shapeCast S1x768 bp shapeCasts_S768_S1x768))
    shapeCasts_S8192x768_S8x32x32x768

variable (m : (ℓ : Loc nD τ sig) → Buf (Elt F) ℓ) (ρ : Dev nD → PrngReg)

/-! ## What each kernel is handed, and what it leaves -/

/-- The projected matrix after the first kernel. -/
theorem W2_v6 (c : Dev nD) : (W2 m ρ c (Proc.devRef .tc main_v6) : S8192x2304.Idx → Elt F .bf16)
    = G0 (shapeCast S8192x768 (m ((c : Thread nD τ).loc main_arg0) : S8x32x32x768.Idx → Elt F .f32) shapeCasts_S8x32x32x768_S8192x768)
        (truncf .bf16 (transpose S768x2304 [1, 0] (m ((c : Thread nD τ).loc main_arg1) : S2304x768.Idx → Elt F .f32) transposes_S2304x768_S768x2304_1_0) bitsLt_bf16_f32)
        (shapeCast S1x2304 (m ((c : Thread nD τ).loc main_arg2) : S2304.Idx → Elt F .f32) shapeCasts_S2304_S1x2304) := by
  rw [show (W2 m ρ c (Proc.devRef .tc main_v6) : S8192x2304.Idx → Elt F .bf16) = (dat0 (V1 m ρ) c).arrAt 3 cfg0.N from W2_arr m ρ c 3,
    final0 (V1 m ρ) c]
  show G0 (W1 m ρ c (Proc.devRef .tc main_v0)) (W1 m ρ c (Proc.devRef .tc main_v2)) (W1 m ρ c (Proc.devRef .tc main_v5)) = _
  rw [show (W1 m ρ c (Proc.devRef .tc main_v0) : S8192x768.Idx → Elt F .f32) = _ from host0_v0 (W0 m ρ c),
    show (W1 m ρ c (Proc.devRef .tc main_v2) : S768x2304.Idx → Elt F .bf16) = _ from host0_v2 (W0 m ρ c),
    show (W1 m ρ c (Proc.devRef .tc main_v5) : S1x2304.Idx → Elt F .f32) = _ from host0_v5 (W0 m ρ c)]

/-- The heads' outputs side by side, after the attention kernel. -/
theorem W3_v7_eq (c : Dev nD) : (W3 m ρ c (Proc.devRef .tc main_v7) : S8192x768.Idx → Elt F .bf16)
    = G1 (W2 m ρ c (Proc.devRef .tc main_v6) : S8192x2304.Idx → Elt F .bf16) := by
  rw [W3_v7 m ρ c, final1 (V2 m ρ) c]

/-- The second weight matrix, transposed by the first host stretch, reaches the last kernel untouched. -/
theorem W4_v4 (c : Dev nD) : (W4 m ρ c (Proc.devRef .tc main_v4) : S768x768.Idx → Elt F .bf16)
    = truncf .bf16 (transpose S768x768 [1, 0] (m ((c : Thread nD τ).loc main_arg3) : S768x768.Idx → Elt F .f32) transposes_S768x768_S768x768_1_0) bitsLt_bf16_f32 := by
  have h : W4 m ρ c (Proc.devRef .tc main_v4) = W1 m ρ c (Proc.devRef .tc main_v4) :=
    calc W4 m ρ c (Proc.devRef .tc main_v4)
      _ = W3 m ρ c (Proc.devRef .tc main_v4) := StableHlo.after_of_writes_sub hostOps2 _ hostOps2_writes (by decide)
      _ = W2 m ρ c (Proc.devRef .tc main_v4) := W3_of_ne m ρ c main_v4 (by decide)
      _ = W1 m ρ c (Proc.devRef .tc main_v4) := W2_of_ne m ρ c main_v4 (by decide)
  rw [h]
  exact host0_v4 (W0 m ρ c)

/-- The second bias as a row. -/
theorem W4_v8 (c : Dev nD) : (W4 m ρ c (Proc.devRef .tc main_v8) : S1x768.Idx → Elt F .f32)
    = shapeCast S1x768 (m ((c : Thread nD τ).loc main_arg4) : S768.Idx → Elt F .f32) shapeCasts_S768_S1x768 := by
  rw [show (W4 m ρ c (Proc.devRef .tc main_v8) : S1x768.Idx → Elt F .f32) = _ from host2_v8 (W3 m ρ c)]
  have h : W3 m ρ c (Proc.devRef .tc main_arg4) = m ((c : Thread nD τ).loc main_arg4) :=
    calc W3 m ρ c (Proc.devRef .tc main_arg4)
      _ = W2 m ρ c (Proc.devRef .tc main_arg4) := W3_of_ne m ρ c main_arg4 (by decide)
      _ = W1 m ρ c (Proc.devRef .tc main_arg4) := W2_of_ne m ρ c main_arg4 (by decide)
      _ = W0 m ρ c (Proc.devRef .tc main_arg4) := StableHlo.after_of_writes_sub hostOps0 _ hostOps0_writes (by decide)
      _ = m ((c : Thread nD τ).loc main_arg4) := rfl
  rw [h]

/-- The attention kernel's output reaches the last kernel untouched. -/
theorem W4_v7 (c : Dev nD) : W4 m ρ c (Proc.devRef .tc main_v7) = W3 m ρ c (Proc.devRef .tc main_v7) :=
  StableHlo.after_of_writes_sub hostOps2 _ hostOps2_writes (by decide)

/-- THE RESULT ARRAY after the run is `KV` of the argument arrays as launched. -/
theorem W6_v10 (c : Dev nD) : (W6 m ρ c (Proc.devRef .tc main_v10) : S8x32x32x768.Idx → Elt F .f32)
    = KV (m ((c : Thread nD τ).loc main_arg0)) (m ((c : Thread nD τ).loc main_arg1)) (m ((c : Thread nD τ).loc main_arg2))
        (m ((c : Thread nD τ).loc main_arg3)) (m ((c : Thread nD τ).loc main_arg4)) := by
  rw [show (W6 m ρ c (Proc.devRef .tc main_v10) : S8x32x32x768.Idx → Elt F .f32) = _ from host3_v10 (W5 m ρ c),
    show (W5 m ρ c (Proc.devRef .tc main_v9) : S8192x768.Idx → Elt F .f32) = (dat2 (V4 m ρ) c).arrAt 3 cfg2.N from W5_arr m ρ c 3,
    final2 (V4 m ρ) c]
  show shapeCast S8x32x32x768 (G2 (W4 m ρ c (Proc.devRef .tc main_v7)) (W4 m ρ c (Proc.devRef .tc main_v4)) (W4 m ρ c (Proc.devRef .tc main_v8))) _ = _
  rw [W4_v7 m ρ c, W3_v7_eq m ρ c, W2_v6 m ρ c, W4_v4 m ρ c, W4_v8 m ρ c]
  rfl

/-! ## The run, read -/

/-- Every weakly fair execution terminates without a fault; the result array ends at `KV` of the arguments, and the
    arguments end as launched. -/
theorem run_value : θ_run defs (onTc (τ := τ) (main (F := F))) ⟨m, fun _ => 0, ρ⟩ (fun r => ∀ c : Dev nD,
      r.2.mem ((c.tc : Thread nD τ).loc main_v10) = KV (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v10 (by decide))).trans (W6_v10 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩)
    (run_main m ρ)

end Cert.KernelIdeal.Fr

end
-- ==== Proof.Spec.lean ====
/-
  The function both programs compute, over the extended reals, as one expression of the five argument arrays.

  Multi-head self-attention over 8 images of 32 × 32 = 1024 tokens with 768 channels, 12 heads of width 64:
  * the tokens are laid flat, row `r = b · 1024 + h · 32 + w` of an 8192 × 768 matrix `X`;
  * `QKV = X · Wqkvᵀ + bqkv` is 8192 × 2304: columns `[0, 768)` hold the queries, `[768, 1536)` the keys and
    `[1536, 2304)` the values, and within each, head `n` owns the 64 columns from `n · 64`;
  * for image `b` and head `n`, with `q k v : 1024 × 64` cut out of `QKV`, the scores are
    `s i j = ∑ d, (q i d · ⅛) · k j d`, a row's maximum is the fold of `max` over the row from `-∞`,
    `p i j = exp (s i j - max_i) / ∑ j', exp (s i j' - max_i)` and the head's output is `o i d = ∑ j, p i j · v j d`;
  * the heads' outputs are laid side by side, `A r (n · 64 + d) = o_{b,n} i d` at `r = b · 1024 + i`, and the result is
    `A · Wprojᵀ + bproj`, row `r` read back at `(b, h, w)`.

  The scale `⅛` and `-∞` are kept as the float words the programs spell them with (`0x3E000000`, `0xFF800000`): both
  programs use the same words, so neither is ever evaluated. Every sum is a `Finset` sum over a `Fin`, so no order of
  accumulation is left in the expression.
-/
import Idealize.ShloMosaic.PureOps.Ideal
import Idealize.ShloMosaic.PureOps.Ideal.Laws
import Idealize.ShloMosaic.Lib.ValueIdx

noncomputable section

namespace Cert.Spec

open Idealize.ShloMosaic

/-- The score scale, one eighth, as the programs' float word. -/
def scaleW : EReal := Ideal.ofBits .f32 0x3E000000#32

/-- The value a row maximum starts from, minus infinity, as the programs' float word. -/
def negInf : EReal := Ideal.ofBits .f32 0xFF800000#32

/-- A dense layer with output-major weights: `(x · wᵀ + b) p c = ∑ k, x p k · w c k + b c`. -/
def dense {M K N : Nat} (x : Fin M → Fin K → EReal) (w : Fin N → Fin K → EReal) (b : Fin N → EReal)
    (p : Fin M) (c : Fin N) : EReal :=
  (∑ k : Fin K, x p k * w c k) + b c

/-- One head's scores: the scaled query row `i` against the key row `j`. -/
def score (q k : Fin 1024 → Fin 64 → EReal) (i j : Fin 1024) : EReal :=
  ∑ d : Fin 64, (q i d * scaleW) * k j d

/-- A row's maximum: the fold of `max` over the row, from minus infinity. -/
def rowMax (s : Fin 1024 → Fin 1024 → EReal) (i : Fin 1024) : EReal :=
  (Finset.univ : Finset (Fin 1024)).fold max negInf (s i)

/-- The shifted exponentials of a row. -/
def expo (s : Fin 1024 → Fin 1024 → EReal) (i j : Fin 1024) : EReal :=
  Ideal.exp (s i j - rowMax s i)

/-- The softmax of a row: each shifted exponential over the row's sum of them. -/
def prob (s : Fin 1024 → Fin 1024 → EReal) (i j : Fin 1024) : EReal :=
  Ideal.div (expo s i j) (∑ j' : Fin 1024, expo s i j')

/-- One head of attention: the softmax of the scores, times the values. -/
def head (q k v : Fin 1024 → Fin 64 → EReal) (i : Fin 1024) (d : Fin 64) : EReal :=
  ∑ j : Fin 1024, prob (score q k) i j * v j d

/-- Row `b · 1024 + i` of the flat token axis. -/
def row (b : Fin 8) (i : Fin 1024) : Fin 8192 := ⟨b.val * 1024 + i.val, by omega⟩

/-- Column `part · 768 + n · 64 + d` of the 2304 projected channels: `part` 0, 1, 2 for queries, keys, values. -/
def col (part : Fin 3) (n : Fin 12) (d : Fin 64) : Fin 2304 := ⟨part.val * 768 + n.val * 64 + d.val, by omega⟩

/-- Head `n` of image `b`'s queries (`part = 0`), keys (`1`) or values (`2`), cut out of the projected matrix. -/
def piece (QKV : Fin 8192 → Fin 2304 → EReal) (part : Fin 3) (b : Fin 8) (n : Fin 12) (i : Fin 1024) (d : Fin 64) : EReal :=
  QKV (row b i) (col part n d)

/-- The heads' outputs side by side: row `r`, column `c` is head `c / 64` of image `r / 1024` at token `r % 1024`,
    channel `c % 64`. -/
def attn (QKV : Fin 8192 → Fin 2304 → EReal) (r : Fin 8192) (c : Fin 768) : EReal :=
  head (piece QKV 0 ⟨r.val / 1024, by omega⟩ ⟨c.val / 64, by omega⟩)
       (piece QKV 1 ⟨r.val / 1024, by omega⟩ ⟨c.val / 64, by omega⟩)
       (piece QKV 2 ⟨r.val / 1024, by omega⟩ ⟨c.val / 64, by omega⟩)
       ⟨r.val % 1024, Nat.mod_lt _ (by decide)⟩ ⟨c.val % 64, Nat.mod_lt _ (by decide)⟩

/-- The whole block on the flat token axis: project, attend, project again. -/
def flatOut (X : Fin 8192 → Fin 768 → EReal) (wqkv : Fin 2304 → Fin 768 → EReal) (bqkv : Fin 2304 → EReal)
    (wproj : Fin 768 → Fin 768 → EReal) (bproj : Fin 768 → EReal) : Fin 8192 → Fin 768 → EReal :=
  dense (attn (dense X wqkv bqkv)) wproj bproj

/-- Row `b · 1024 + h · 32 + w` of the flat token axis, from an index of the 8 × 32 × 32 × 768 array. -/
def tok (i : (⟨4, ![8, 32, 32, 768]⟩ : Shape).Idx) : Fin 8192 :=
  ⟨(i 0).val * 1024 + (i 1).val * 32 + (i 2).val, by
    have h0 : (i 0).val < 8 := (i 0).isLt
    have h1 : (i 1).val < 32 := (i 1).isLt
    have h2 : (i 2).val < 32 := (i 2).isLt
    omega⟩

/-- The input laid flat: row `r` is the token `(r / 1024, r % 1024 / 32, r % 32)`. -/
def flat (x : (⟨4, ![8, 32, 32, 768]⟩ : Shape).Idx → EReal) (r : Fin 8192) (c : Fin 768) : EReal :=
  x (ValueIdx.ix4 (⟨r.val / 1024, by omega⟩ : Fin 8) (⟨r.val % 1024 / 32, by omega⟩ : Fin 32) (⟨r.val % 32, Nat.mod_lt _ (by decide)⟩ : Fin 32) c)

/-- THE RESULT: the 8 × 32 × 32 × 768 array both programs end with, as one function of the five argument arrays. -/
def G (x : (⟨4, ![8, 32, 32, 768]⟩ : Shape).Idx → EReal) (wqkv : (⟨2, ![2304, 768]⟩ : Shape).Idx → EReal)
    (bqkv : (⟨1, ![2304]⟩ : Shape).Idx → EReal) (wproj : (⟨2, ![768, 768]⟩ : Shape).Idx → EReal)
    (bproj : (⟨1, ![768]⟩ : Shape).Idx → EReal) : (⟨4, ![8, 32, 32, 768]⟩ : Shape).Idx → EReal :=
  fun i => flatOut (flat x) (fun o c => wqkv (ValueIdx.ix2 o c)) (fun o => bqkv (ValueIdx.ix1 o))
    (fun o c => wproj (ValueIdx.ix2 o c)) (fun o => bproj (ValueIdx.ix1 o)) (tok i) (i 3)

end Cert.Spec

end
-- ==== Proof.Pay0.lean ====
/-
  The first dense layer's kernel body, read at one entry of the block it writes.

  The body takes a 2048 x 768 block x of the activations, the whole 768 x 2304 weight w (already transposed, so
  input-major) and the 1 x 2304 bias b, and forms truncate(truncate(x) · w + broadcast b). Over the extended reals
  truncation is the identity, the product accumulates into the zero splat, and the bias row is repeated over the
  2048 rows, so the entry at (p, c) is (∑ k, x p k · w k c) + b 0 c. The sum is a Finset sum over Fin 768: the
  contraction index of the product is carried to Fin 768 by the one-axis bijection.
-/
import proofs.«178434_j73461120630936_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelValue

open Cert.KernelIdeal Cert.KernelIdeal.Gen Idealize.ShloMosaic Idealize.ShloMosaic.ValueIdx

/-- The dimension numbers of the first layer's product: rows x contraction times contraction x columns. -/
abbrev dotA : DotDims S2048x768 S768x2304 S2048x2304 := dot_S2048x768_S768x2304_S2048x2304_1_0_0_1_n_n

/-- The left operand's row is the output's row. -/
theorem dotA_lhs_0 (i : S2048x2304.Idx) (q : dotA.contr.Idx) : (dotA.lhsIdx i q 0).val = (i 0).val := by
  unfold DotDims.lhsIdx
  rw [dif_neg (show ¬(0 : Fin S2048x768.rank) ∈ dotA.lhsBatch by decide),
    dif_pos (show (0 : Fin S2048x768.rank) ∈ dotA.lhsNonContracting by decide)]
  rfl

/-- The left operand's column is the contraction coordinate. -/
theorem dotA_lhs_1 (i : S2048x2304.Idx) (q : dotA.contr.Idx) : (dotA.lhsIdx i q 1).val = (q ⟨0, by decide⟩).val :=
  dotA.lhsIdx_val_of_single rfl i q

/-- The right operand's row is the contraction coordinate. -/
theorem dotA_rhs_0 (i : S2048x2304.Idx) (q : dotA.contr.Idx) : (dotA.rhsIdx i q 0).val = (q ⟨0, by decide⟩).val :=
  dotA.rhsIdx_val_of_single rfl i q

/-- The right operand's column is the output's column. -/
theorem dotA_rhs_1 (i : S2048x2304.Idx) (q : dotA.contr.Idx) : (dotA.rhsIdx i q 1).val = (i 1).val := by
  unfold DotDims.rhsIdx
  rw [dif_neg (show ¬(1 : Fin S768x2304.rank) ∈ dotA.rhsBatch by decide),
    dif_pos (show (1 : Fin S768x2304.rank) ∈ dotA.rhsNonContracting by decide)]
  rfl

/-- The product into the zero splat at (p, c): the sum over k of lhs (p, k) · rhs (k, c). -/
theorem matmulA_apply (lhs : FVec Ideal S2048x768 .bf16) (rhs : FVec Ideal S768x2304 .bf16) (p : Fin 2048) (c : Fin 2304) :
    matmul dotA none lhs rhs (constant (F := Ideal) S2048x2304 .f32 0x00000000#32) (ix2 p c)
      = ∑ k : Fin 768, lhs (ix2 p k) * rhs (ix2 k c) := by
  simp only [matmul]
  rw [Ideal.matmul_constant_zero_apply, ← Equiv.sum_comp (contrEquiv1 dotA 768 rfl rfl).symm]
  refine Finset.sum_congr rfl fun k _ => ?_
  have hk := contrEquiv1_symm_val dotA 768 rfl rfl k
  have el : dotA.lhsIdx (ix2 p c) ((contrEquiv1 dotA 768 rfl rfl).symm k) = ix2 p k := funext fun a => Fin.ext (by
    match a with
    | ⟨0, _⟩ => exact dotA_lhs_0 _ _
    | ⟨1, _⟩ => exact (dotA_lhs_1 _ _).trans hk)
  have er : dotA.rhsIdx (ix2 p c) ((contrEquiv1 dotA 768 rfl rfl).symm k) = ix2 k c := funext fun a => Fin.ext (by
    match a with
    | ⟨0, _⟩ => exact (dotA_rhs_0 _ _).trans hk
    | ⟨1, _⟩ => exact dotA_rhs_1 _ _)
  rw [el, er]

/-- The first layer's payload at (p, c): the row of x against the column of w, plus the bias at c. -/
theorem pay0_apply (x0 : Vec Ideal S2048x768 .f32) (w : Vec Ideal S768x2304 .bf16) (b : Vec Ideal S1x2304 .f32)
    (p : Fin 2048) (c : Fin 2304) :
    k0_pay1 (F := Ideal) x0 w b (ix2 p c) = (∑ k : Fin 768, x0 (ix2 p k) * w (ix2 k c)) + b (ix2 0 c) := by
  unfold k0_pay1
  rw [truncf_apply, addf_apply]
  rw [shapeCast_self, shapeCast_self, shapeCast_self]
  rw [broadcastTo_1b_ab_apply]
  rw [matmulA_apply]
  rfl

end Cert.KernelValue

end
-- ==== Proof.Bridge1.lean ====
/-
  The layout operations around the kernels, read at an index, and the first dense layer.

  Laying the 8 × 32 × 32 × 768 input flat keeps the row-major order, so row `r` of the flat matrix is the token
  `(r / 1024, r % 1024 / 32, r % 32)`; folding the flat result back is the inverse. Transposing a weight matrix swaps its
  two coordinates, and changing its float format is the identity over the extended reals. A bias made a one-row matrix
  reads its entry at `(0, o)`. With these, the projection kernel's output array — the body's value on the row block
  containing the row — is the dense layer `x · wᵀ + b` of the flat input, entry by entry.
-/
import proofs.«178434_j73461120630936_2_alg».proof.Proof.Spec
import proofs.«178434_j73461120630936_2_alg».proof.Proof.Arr0
import proofs.«178434_j73461120630936_2_alg».proof.Proof.Pay0
import Idealize.ShloMosaic.Lib.Pipeline.Value
import Idealize.ShloMosaic.Lib.ValueIdx
import Idealize.ShloMosaic.Lib.ValueLayout

noncomputable section

namespace Cert.Bridge

open Cert.KernelIdeal Cert.KernelIdeal.Gen Cert.KernelIdeal.Fr Idealize.ShloMosaic Idealize.ShloMosaic.ValueIdx

/-- The input laid flat: row `r` of the 8192 × 768 matrix is the token `(r / 1024, r % 1024 / 32, r % 32)`, the two
    having the same row-major position. -/
theorem flat_apply (x : S8x32x32x768.Idx → EReal) (r : Fin 8192) (k : Fin 768) :
    (shapeCast S8192x768 x shapeCasts_S8x32x32x768_S8192x768 : S8192x768.Idx → EReal) (ix2 r k) = Cert.Spec.flat x r k := by
  unfold Cert.Spec.flat
  refine shapeCast_apply x _ _ _ ?_
  rw [Shape.rowMajor_val_four, Shape.rowMajor_val_two]
  show ((r.val / 1024 * 32 + r.val % 1024 / 32) * 32 + r.val % 32) * 768 + k.val = r.val * 768 + k.val
  have hr : r.val < 8192 := r.isLt
  omega

/-- The flat result folded back: the entry at `(b, h, w, c)` is row `b · 1024 + h · 32 + w`, column `c`. -/
theorem unflat_apply (A : S8192x768.Idx → EReal) (i : S8x32x32x768.Idx) :
    (shapeCast S8x32x32x768 A shapeCasts_S8192x768_S8x32x32x768 : S8x32x32x768.Idx → EReal) i = A (ix2 (Cert.Spec.tok i) (i 3)) := by
  refine shapeCast_apply A _ _ _ ?_
  rw [Shape.rowMajor_val_four, Shape.rowMajor_val_two]
  show ((i 0).val * 1024 + (i 1).val * 32 + (i 2).val) * 768 + (i 3).val
    = (((i 0).val * 32 + (i 1).val) * 32 + (i 2).val) * 768 + (i 3).val
  omega

/-- The first weight matrix transposed and rounded: over the extended reals rounding is the identity, so the entry at
    `(k, o)` is the entry at `(o, k)` of the output-major matrix. -/
theorem wqT_apply (w : S2304x768.Idx → EReal) (k : Fin 768) (o : Fin 2304) :
    (truncf (F := Ideal) (φ := .f32) .bf16 (transpose S768x2304 [1, 0] w transposes_S2304x768_S768x2304_1_0) bitsLt_bf16_f32) (ix2 k o) = w (ix2 o k) := by
  rw [truncf_apply]
  exact transpose_ix2_apply w _ k o

/-- The same for the second weight matrix. -/
theorem wpT_apply (w : S768x768.Idx → EReal) (k : Fin 768) (o : Fin 768) :
    (truncf (F := Ideal) (φ := .f32) .bf16 (transpose S768x768 [1, 0] w transposes_S768x768_S768x768_1_0) bitsLt_bf16_f32) (ix2 k o) = w (ix2 o k) := by
  rw [truncf_apply]
  exact transpose_ix2_apply w _ k o

/-- The first bias as a one-row matrix. -/
theorem bq_row_apply (b : S2304.Idx → EReal) (o : Fin 2304) :
    (shapeCast S1x2304 b shapeCasts_S2304_S1x2304 : S1x2304.Idx → EReal) (ix2 0 o) = b (ix1 o) :=
  shapeCast_a_1a_apply b _ 0 o

/-- The second bias as a one-row matrix. -/
theorem bp_row_apply (b : S768.Idx → EReal) (o : Fin 768) :
    (shapeCast S1x768 b shapeCasts_S768_S1x768 : S1x768.Idx → EReal) (ix2 0 o) = b (ix1 o) :=
  shapeCast_a_1a_apply b _ 0 o

/-- The block of 2048 rows containing row `r`, read at row `r % 2048`, is row `r`. -/
theorem rowsOf0_self (X : S8192x768.Idx → EReal) (r : Fin 8192) (k : Fin 768) :
    rowsOf0 (F := Ideal) X r.val (ix2 (⟨r.val % 2048, Nat.mod_lt _ (by decide)⟩ : Fin 2048) k) = X (ix2 r k) := by
  unfold rowsOf0
  refine congrArg X (funext fun a => Fin.ext ?_)
  match a with
  | ⟨0, _⟩ =>
    show (2048 * (r.val / 2048) + r.val % 2048) % 8192 = r.val
    have hr : r.val < 8192 := r.isLt
    omega
  | ⟨1, _⟩ => rfl

/-- THE FIRST DENSE LAYER: the projection kernel's output array, on the flat input, the transposed weights and the bias
    row, is the dense layer of the flat input with the output-major weights and the bias. -/
theorem G0_dense (x : S8x32x32x768.Idx → EReal) (wq : S2304x768.Idx → EReal) (bq : S2304.Idx → EReal) (r : Fin 8192) (o : Fin 2304) :
    G0 (F := Ideal) (shapeCast S8192x768 x shapeCasts_S8x32x32x768_S8192x768)
        (truncf (F := Ideal) (φ := .f32) .bf16 (transpose S768x2304 [1, 0] wq transposes_S2304x768_S768x2304_1_0) bitsLt_bf16_f32)
        (shapeCast S1x2304 bq shapeCasts_S2304_S1x2304) (ix2 r o)
      = Cert.Spec.dense (Cert.Spec.flat x) (fun o c => wq (ix2 o c)) (fun o => bq (ix1 o)) r o := by
  unfold G0 Cert.Spec.dense
  show k0_pay1 (F := Ideal) (rowsOf0 (F := Ideal) (shapeCast S8192x768 x shapeCasts_S8x32x32x768_S8192x768) r.val) _ _
      (ix2 (⟨r.val % 2048, Nat.mod_lt _ (by decide)⟩ : Fin 2048) o) = _
  rw [Cert.KernelValue.pay0_apply, bq_row_apply]
  congr 1
  refine Finset.sum_congr rfl fun k _ => ?_
  rw [wqT_apply, rowsOf0_self, flat_apply]

end Cert.Bridge

end
-- ==== Proof.Pay2.lean ====
/-
  The last dense layer's kernel body, read at one entry of the block it writes.

  The body takes a 2048 x 768 block x of the attention output, the whole 768 x 768 weight w (already transposed, so
  input-major) and the 1 x 768 bias b, and forms x · w + broadcast b. The product accumulates into the zero splat and
  the bias row is repeated over the 2048 rows, so the entry at (p, c) is (∑ k, x p k · w k c) + b 0 c, the sum a
  Finset sum over Fin 768.
-/
import proofs.«178434_j73461120630936_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelValue

open Cert.KernelIdeal Cert.KernelIdeal.Gen Idealize.ShloMosaic Idealize.ShloMosaic.ValueIdx

/-- The dimension numbers of the last layer's product: rows x contraction times contraction x columns. -/
abbrev dotD : DotDims S2048x768 S768x768 S2048x768 := dot_S2048x768_S768x768_S2048x768_1_0_0_1_n_n

/-- The left operand's row is the output's row. -/
theorem dotD_lhs_0 (i : S2048x768.Idx) (q : dotD.contr.Idx) : (dotD.lhsIdx i q 0).val = (i 0).val := by
  unfold DotDims.lhsIdx
  rw [dif_neg (show ¬(0 : Fin S2048x768.rank) ∈ dotD.lhsBatch by decide),
    dif_pos (show (0 : Fin S2048x768.rank) ∈ dotD.lhsNonContracting by decide)]
  rfl

/-- The left operand's column is the contraction coordinate. -/
theorem dotD_lhs_1 (i : S2048x768.Idx) (q : dotD.contr.Idx) : (dotD.lhsIdx i q 1).val = (q ⟨0, by decide⟩).val :=
  dotD.lhsIdx_val_of_single rfl i q

/-- The right operand's row is the contraction coordinate. -/
theorem dotD_rhs_0 (i : S2048x768.Idx) (q : dotD.contr.Idx) : (dotD.rhsIdx i q 0).val = (q ⟨0, by decide⟩).val :=
  dotD.rhsIdx_val_of_single rfl i q

/-- The right operand's column is the output's column. -/
theorem dotD_rhs_1 (i : S2048x768.Idx) (q : dotD.contr.Idx) : (dotD.rhsIdx i q 1).val = (i 1).val := by
  unfold DotDims.rhsIdx
  rw [dif_neg (show ¬(1 : Fin S768x768.rank) ∈ dotD.rhsBatch by decide),
    dif_pos (show (1 : Fin S768x768.rank) ∈ dotD.rhsNonContracting by decide)]
  rfl

/-- The product into the zero splat at (p, c): the sum over k of lhs (p, k) · rhs (k, c). -/
theorem matmulD_apply (lhs : FVec Ideal S2048x768 .bf16) (rhs : FVec Ideal S768x768 .bf16) (p : Fin 2048) (c : Fin 768) :
    matmul dotD none lhs rhs (constant (F := Ideal) S2048x768 .f32 0x00000000#32) (ix2 p c)
      = ∑ k : Fin 768, lhs (ix2 p k) * rhs (ix2 k c) := by
  simp only [matmul]
  rw [Ideal.matmul_constant_zero_apply, ← Equiv.sum_comp (contrEquiv1 dotD 768 rfl rfl).symm]
  refine Finset.sum_congr rfl fun k _ => ?_
  have hk := contrEquiv1_symm_val dotD 768 rfl rfl k
  have el : dotD.lhsIdx (ix2 p c) ((contrEquiv1 dotD 768 rfl rfl).symm k) = ix2 p k := funext fun a => Fin.ext (by
    match a with
    | ⟨0, _⟩ => exact dotD_lhs_0 _ _
    | ⟨1, _⟩ => exact (dotD_lhs_1 _ _).trans hk)
  have er : dotD.rhsIdx (ix2 p c) ((contrEquiv1 dotD 768 rfl rfl).symm k) = ix2 k c := funext fun a => Fin.ext (by
    match a with
    | ⟨0, _⟩ => exact (dotD_rhs_0 _ _).trans hk
    | ⟨1, _⟩ => exact dotD_rhs_1 _ _)
  rw [el, er]

/-- The last layer's payload at (p, c): the row of x against the column of w, plus the bias at c. -/
theorem pay2_apply (x0 : Vec Ideal S2048x768 .bf16) (w : Vec Ideal S768x768 .bf16) (b : Vec Ideal S1x768 .f32)
    (p : Fin 2048) (c : Fin 768) :
    k2_pay1 (F := Ideal) x0 w b (ix2 p c) = (∑ k : Fin 768, x0 (ix2 p k) * w (ix2 k c)) + b (ix2 0 c) := by
  unfold k2_pay1
  rw [addf_apply]
  rw [shapeCast_self, shapeCast_self, shapeCast_self]
  rw [broadcastTo_1b_ab_apply]
  rw [matmulD_apply]

end Cert.KernelValue

end
-- ==== Proof.Bridge1b.lean ====
/-
  The second dense layer: the output projection's result array — the body's value on the row block containing the row —
  is the dense layer `A · wᵀ + b` of the attention output, entry by entry.
-/
import proofs.«178434_j73461120630936_2_alg».proof.Proof.Bridge1
import proofs.«178434_j73461120630936_2_alg».proof.Proof.Arr2
import proofs.«178434_j73461120630936_2_alg».proof.Proof.Pay2

noncomputable section

namespace Cert.Bridge

open Cert.KernelIdeal Cert.KernelIdeal.Gen Cert.KernelIdeal.Fr Idealize.ShloMosaic Idealize.ShloMosaic.ValueIdx

/-- The block of 2048 rows containing row `r`, read at row `r % 2048`, is row `r`. -/
theorem rowsOf2_self (X : S8192x768.Idx → EReal) (r : Fin 8192) (k : Fin 768) :
    rowsOf2 (F := Ideal) X r.val (ix2 (⟨r.val % 2048, Nat.mod_lt _ (by decide)⟩ : Fin 2048) k) = X (ix2 r k) := by
  unfold rowsOf2
  refine congrArg X (funext fun a => Fin.ext ?_)
  match a with
  | ⟨0, _⟩ =>
    show (2048 * (r.val / 2048) + r.val % 2048) % 8192 = r.val
    have hr : r.val < 8192 := r.isLt
    omega
  | ⟨1, _⟩ => rfl

/-- THE SECOND DENSE LAYER: the output projection's result array, on the attention output, the transposed weights and
    the bias row, is the dense layer of the attention output with the output-major weights and the bias. -/
theorem G2_dense (A : S8192x768.Idx → EReal) (wp : S768x768.Idx → EReal) (bp : S768.Idx → EReal) (r : Fin 8192) (o : Fin 768) :
    G2 (F := Ideal) A
        (truncf (F := Ideal) (φ := .f32) .bf16 (transpose S768x768 [1, 0] wp transposes_S768x768_S768x768_1_0) bitsLt_bf16_f32)
        (shapeCast S1x768 bp shapeCasts_S768_S1x768) (ix2 r o)
      = Cert.Spec.dense (fun r k => A (ix2 r k)) (fun o c => wp (ix2 o c)) (fun o => bp (ix1 o)) r o := by
  unfold G2 Cert.Spec.dense
  show k2_pay1 (F := Ideal) (rowsOf2 (F := Ideal) A r.val) _ _
      (ix2 (⟨r.val % 2048, Nat.mod_lt _ (by decide)⟩ : Fin 2048) o) = _
  rw [Cert.KernelValue.pay2_apply, bp_row_apply]
  congr 1
  refine Finset.sum_congr rfl fun k _ => ?_
  rw [wpT_apply, rowsOf2_self]

end Cert.Bridge

end
-- ==== Proof.Pay1a.lean ====
/-
  The pieces of the attention body that are not pointwise, each read at an index given by coordinates.

  * A vector cast to a column, [a] to [a, 1], and a column repeated along its rows, [a, 1] to [a, b]: the two layout
    steps by which a row statistic (a row's maximum, a row's sum) is spread back over the row.
  * The scores product, which contracts the second axis of BOTH operands: at (i, j) it is ∑ d, lhs (i, d) · rhs (j, d).
  * The context product, an ordinary rows-by-columns product: at (i, d) it is ∑ j, lhs (i, j) · rhs (j, d).
  * A row's maximum and a row's sum: the reductions along axis 1 of a 1024 x 1024 array, at row i, are the fold of max
    from the accumulator's value over the row and the Finset sum over the row.
-/
import proofs.«178434_j73461120630936_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelValue

open Cert.KernelIdeal Cert.KernelIdeal.Gen Idealize.ShloMosaic Idealize.ShloMosaic.ValueIdx

/-! ## A vector as a column, and a column spread over its rows -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (i, j), the operand's row i at its one column. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The scores product: both operands contracted along their second axis -/

/-- The dimension numbers of the scores product: rows x depth against rows x depth. -/
abbrev dotB : DotDims S1024x64 S1024x64 S1024x1024 := dot_S1024x64_S1024x64_S1024x1024_1_1_0_0_n_n

/-- The left operand's row is the output's row. -/
theorem dotB_lhs_0 (i : S1024x1024.Idx) (q : dotB.contr.Idx) : (dotB.lhsIdx i q 0).val = (i 0).val := by
  unfold DotDims.lhsIdx
  rw [dif_neg (show ¬(0 : Fin S1024x64.rank) ∈ dotB.lhsBatch by decide),
    dif_pos (show (0 : Fin S1024x64.rank) ∈ dotB.lhsNonContracting by decide)]
  rfl

/-- The left operand's column is the contraction coordinate. -/
theorem dotB_lhs_1 (i : S1024x1024.Idx) (q : dotB.contr.Idx) : (dotB.lhsIdx i q 1).val = (q ⟨0, by decide⟩).val :=
  dotB.lhsIdx_val_of_single rfl i q

/-- The right operand's row is the output's column. -/
theorem dotB_rhs_0 (i : S1024x1024.Idx) (q : dotB.contr.Idx) : (dotB.rhsIdx i q 0).val = (i 1).val := by
  unfold DotDims.rhsIdx
  rw [dif_neg (show ¬(0 : Fin S1024x64.rank) ∈ dotB.rhsBatch by decide),
    dif_pos (show (0 : Fin S1024x64.rank) ∈ dotB.rhsNonContracting by decide)]
  rfl

/-- The right operand's column is the contraction coordinate. -/
theorem dotB_rhs_1 (i : S1024x1024.Idx) (q : dotB.contr.Idx) : (dotB.rhsIdx i q 1).val = (q ⟨0, by decide⟩).val :=
  dotB.rhsIdx_val_of_single rfl i q

/-- The scores product into the zero splat at (i, j): the sum over d of lhs (i, d) · rhs (j, d). -/
theorem matmulB_apply (lhs : FVec Ideal S1024x64 .bf16) (rhs : FVec Ideal S1024x64 .bf16) (i j : Fin 1024) :
    matmul dotB none lhs rhs (constant (F := Ideal) S1024x1024 .f32 0x00000000#32) (ix2 i j)
      = ∑ d : Fin 64, lhs (ix2 i d) * rhs (ix2 j d) := by
  simp only [matmul]
  rw [Ideal.matmul_constant_zero_apply, ← Equiv.sum_comp (contrEquiv1 dotB 64 rfl rfl).symm]
  refine Finset.sum_congr rfl fun d _ => ?_
  have hd := contrEquiv1_symm_val dotB 64 rfl rfl d
  have el : dotB.lhsIdx (ix2 i j) ((contrEquiv1 dotB 64 rfl rfl).symm d) = ix2 i d := funext fun a => Fin.ext (by
    match a with
    | ⟨0, _⟩ => exact dotB_lhs_0 _ _
    | ⟨1, _⟩ => exact (dotB_lhs_1 _ _).trans hd)
  have er : dotB.rhsIdx (ix2 i j) ((contrEquiv1 dotB 64 rfl rfl).symm d) = ix2 j d := funext fun a => Fin.ext (by
    match a with
    | ⟨0, _⟩ => exact dotB_rhs_0 _ _
    | ⟨1, _⟩ => exact (dotB_rhs_1 _ _).trans hd)
  rw [el, er]

/-! ## The context product: rows x contraction times contraction x columns -/

/-- The dimension numbers of the context product. -/
abbrev dotC : DotDims S1024x1024 S1024x64 S1024x64 := dot_S1024x1024_S1024x64_S1024x64_1_0_0_1_n_n

/-- The left operand's row is the output's row. -/
theorem dotC_lhs_0 (i : S1024x64.Idx) (q : dotC.contr.Idx) : (dotC.lhsIdx i q 0).val = (i 0).val := by
  unfold DotDims.lhsIdx
  rw [dif_neg (show ¬(0 : Fin S1024x1024.rank) ∈ dotC.lhsBatch by decide),
    dif_pos (show (0 : Fin S1024x1024.rank) ∈ dotC.lhsNonContracting by decide)]
  rfl

/-- The left operand's column is the contraction coordinate. -/
theorem dotC_lhs_1 (i : S1024x64.Idx) (q : dotC.contr.Idx) : (dotC.lhsIdx i q 1).val = (q ⟨0, by decide⟩).val :=
  dotC.lhsIdx_val_of_single rfl i q

/-- The right operand's row is the contraction coordinate. -/
theorem dotC_rhs_0 (i : S1024x64.Idx) (q : dotC.contr.Idx) : (dotC.rhsIdx i q 0).val = (q ⟨0, by decide⟩).val :=
  dotC.rhsIdx_val_of_single rfl i q

/-- The right operand's column is the output's column. -/
theorem dotC_rhs_1 (i : S1024x64.Idx) (q : dotC.contr.Idx) : (dotC.rhsIdx i q 1).val = (i 1).val := by
  unfold DotDims.rhsIdx
  rw [dif_neg (show ¬(1 : Fin S1024x64.rank) ∈ dotC.rhsBatch by decide),
    dif_pos (show (1 : Fin S1024x64.rank) ∈ dotC.rhsNonContracting by decide)]
  rfl

/-- The context product into the zero splat at (i, d): the sum over j of lhs (i, j) · rhs (j, d). -/
theorem matmulC_apply (lhs : FVec Ideal S1024x1024 .bf16) (rhs : FVec Ideal S1024x64 .bf16) (i : Fin 1024) (d : Fin 64) :
    matmul dotC none lhs rhs (constant (F := Ideal) S1024x64 .f32 0x00000000#32) (ix2 i d)
      = ∑ j : Fin 1024, lhs (ix2 i j) * rhs (ix2 j d) := by
  simp only [matmul]
  rw [Ideal.matmul_constant_zero_apply, ← Equiv.sum_comp (contrEquiv1 dotC 1024 rfl rfl).symm]
  refine Finset.sum_congr rfl fun j _ => ?_
  have hj := contrEquiv1_symm_val dotC 1024 rfl rfl j
  have el : dotC.lhsIdx (ix2 i d) ((contrEquiv1 dotC 1024 rfl rfl).symm j) = ix2 i j := funext fun a => Fin.ext (by
    match a with
    | ⟨0, _⟩ => exact dotC_lhs_0 _ _
    | ⟨1, _⟩ => exact (dotC_lhs_1 _ _).trans hj)
  have er : dotC.rhsIdx (ix2 i d) ((contrEquiv1 dotC 1024 rfl rfl).symm j) = ix2 j d := funext fun a => Fin.ext (by
    match a with
    | ⟨0, _⟩ => exact (dotC_rhs_0 _ _).trans hj
    | ⟨1, _⟩ => exact dotC_rhs_1 _ _)
  rw [el, er]

/-! ## A row's maximum and a row's sum -/

/-- The source index over row i with column k inserted is (i, k). -/
theorem lift_row (i k : Fin 1024) : reduces_S1024x1024_S1024.lift (ix1 i) k = ix2 i k :=
  funext fun a => Fin.ext (by match a with | ⟨0, _⟩ => rfl | ⟨1, _⟩ => rfl)

/-- The maximum along axis 1 at row i: the fold of max over the row, from the accumulator word's value. -/
theorem rowMax_read (src : FVec Ideal S1024x1024 .f32) (acc : BitVec 32) (hφ : FKind.Formats .f32)
    (hacc : acc = FKind.maximumf.neutral .f32 hφ) (i : Fin 1024) :
    multiReduction .maximumf [1] S1024 src acc reduces_S1024x1024_S1024 hφ hacc (ix1 i)
      = (Finset.univ : Finset (Fin 1024)).fold max (Ideal.ofBits .f32 acc) (fun j => src (ix2 i j)) := by
  refine (Ideal.multiReduction_maximumf_single src acc reduces_S1024x1024_S1024 hφ hacc (ix1 i)).trans ?_
  show (Finset.univ : Finset (Fin 1024)).fold max (Ideal.ofBits .f32 acc)
      (fun k : Fin 1024 => src (reduces_S1024x1024_S1024.lift (ix1 i) k)) = _
  simp only [lift_row]

/-- The sum along axis 1 at row i: the Finset sum over the row. -/
theorem rowSum_read (src : FVec Ideal S1024x1024 .f32) (acc : BitVec 32) (hφ : FKind.Formats .f32)
    (hacc : acc = FKind.add.neutral .f32 hφ) (i : Fin 1024) :
    multiReduction .add [1] S1024 src acc reduces_S1024x1024_S1024 hφ hacc (ix1 i) = ∑ j : Fin 1024, src (ix2 i j) := by
  refine (Ideal.multiReduction_add_single src acc reduces_S1024x1024_S1024 hφ hacc (ix1 i)).trans ?_
  show ∑ k : Fin 1024, src (reduces_S1024x1024_S1024.lift (ix1 i) k) = _
  simp only [lift_row]

end Cert.KernelValue

end
-- ==== Proof.Pay1b.lean ====
/-
  One head of softmax attention as the kernel body forms it, read at an index.

  From two 1024 x 64 blocks qs, ks the body forms the scores (qs scaled by the one-eighth word, times ks with both
  contracted along the depth), subtracts each row's maximum, exponentiates, divides by each row's sum, and multiplies
  by a third block vs. Over the extended reals the truncations and the extension are the identity, so at (i, d) this
  is one head of the specification: ∑ j, prob (score qs ks) i j · vs j d. The four steps are named here as functions
  of the blocks, each read at an index against the specification's score, expo, prob and head.
-/
import proofs.«178434_j73461120630936_2_alg».proof.Proof.Pay1a
import proofs.«178434_j73461120630936_2_alg».proof.Proof.Spec

noncomputable section

namespace Cert.KernelValue

open Cert.KernelIdeal Cert.KernelIdeal.Gen Idealize.ShloMosaic Idealize.ShloMosaic.ValueIdx

/-- An exponential of a vector reads, at an index, the exponential of the entry. -/
theorem exp_apply {s : Shape} {φ : FTy} (a : FVec Ideal s φ) (i : s.Idx) : exp a i = Ideal.exp (a i) := rfl

/-! ## The four steps -/

/-- The scaled scores of a query block against a key block. -/
def scoresOf (qs ks : FVec Ideal S1024x64 .bf16) : FVec Ideal S1024x1024 .f32 :=
  matmul dot_S1024x64_S1024x64_S1024x1024_1_1_0_0_n_n none
    (truncf .bf16 (mulf (extf .f32 qs bitsLt_bf16_f32) (broadcast S1024x64 (Scalar.ofBits (F := Ideal) .f32 0x3E000000#32)))
      bitsLt_bf16_f32)
    ks (constant (F := Ideal) S1024x1024 .f32 0x00000000#32)

/-- The exponentials of a score array, each row shifted by its maximum. -/
def exposOf (s : FVec Ideal S1024x1024 .f32) : FVec Ideal S1024x1024 .f32 :=
  exp (subf s (broadcastTo S1024x1024
    (shapeCast S1024x1 (multiReduction (F := Ideal) .maximumf [1] S1024 s 0xFF800000#32 reduces_S1024x1024_S1024 (.inl rfl) rfl)
      shapeCasts_S1024_S1024x1) broadcasts_S1024x1_S1024x1024))

/-- The softmax of a score array along its rows. -/
def softmaxOf (s : FVec Ideal S1024x1024 .f32) : FVec Ideal S1024x1024 .bf16 :=
  truncf .bf16 (divf (exposOf s) (broadcastTo S1024x1024
    (shapeCast S1024x1 (multiReduction (F := Ideal) .add [1] S1024 (exposOf s) 0x00000000#32 reduces_S1024x1024_S1024 (.inl rfl) rfl)
      shapeCasts_S1024_S1024x1) broadcasts_S1024x1_S1024x1024)) bitsLt_bf16_f32

/-- One head: the softmax of the scores, times the value block. -/
def headOf (qs ks vs : FVec Ideal S1024x64 .bf16) : FVec Ideal S1024x64 .f32 :=
  matmul dot_S1024x1024_S1024x64_S1024x64_1_0_0_1_n_n none (softmaxOf (scoresOf qs ks)) vs
    (constant (F := Ideal) S1024x64 .f32 0x00000000#32)

/-! ## Each step at an index -/

/-- The scores at (i, j): the scaled query row i against the key row j. -/
theorem scoresOf_apply (qs ks : FVec Ideal S1024x64 .bf16) (i j : Fin 1024) :
    scoresOf qs ks (ix2 i j) = Cert.Spec.score (fun i d => qs (ix2 i d)) (fun j d => ks (ix2 j d)) i j := by
  unfold scoresOf
  refine (matmulB_apply _ _ i j).trans ?_
  unfold Cert.Spec.score
  refine Finset.sum_congr rfl fun d _ => ?_
  rw [truncf_apply, mulf_apply, extf_apply, broadcast_apply]
  rfl

/-- The shifted exponentials at (i, j). -/
theorem exposOf_apply (s : FVec Ideal S1024x1024 .f32) (i j : Fin 1024) :
    exposOf s (ix2 i j) = Cert.Spec.expo (fun i j => s (ix2 i j)) i j := by
  unfold exposOf
  rw [exp_apply, subf_apply, broadcastTo_a1_ab_apply, shapeCast_a_a1_apply]
  exact congrArg (fun m => Ideal.exp (s (ix2 i j) - m)) (rowMax_read s _ _ _ i)

/-- The softmax at (i, j). -/
theorem softmaxOf_apply (s : FVec Ideal S1024x1024 .f32) (i j : Fin 1024) :
    softmaxOf s (ix2 i j) = Cert.Spec.prob (fun i j => s (ix2 i j)) i j := by
  unfold softmaxOf
  rw [truncf_apply, divf_apply, broadcastTo_a1_ab_apply, shapeCast_a_a1_apply]
  refine (congrArg (fun z => Ideal.div (exposOf s (ix2 i j)) z) (rowSum_read (exposOf s) _ _ _ i)).trans ?_
  unfold Cert.Spec.prob
  simp only [exposOf_apply]

/-- One head at (i, d): the specification's head of the three blocks. -/
theorem headOf_apply (qs ks vs : FVec Ideal S1024x64 .bf16) (i : Fin 1024) (d : Fin 64) :
    headOf qs ks vs (ix2 i d)
      = Cert.Spec.head (fun i d => qs (ix2 i d)) (fun j d => ks (ix2 j d)) (fun j d => vs (ix2 j d)) i d := by
  unfold headOf
  refine (matmulC_apply _ _ i d).trans ?_
  unfold Cert.Spec.head
  have hs : (fun i j => scoresOf qs ks (ix2 i j))
      = Cert.Spec.score (fun i d => qs (ix2 i d)) (fun j d => ks (ix2 j d)) :=
    funext fun i => funext fun j => scoresOf_apply qs ks i j
  refine Finset.sum_congr rfl fun j _ => ?_
  rw [softmaxOf_apply, hs]

end Cert.KernelValue

end
-- ==== Proof.Pay1.lean ====
/-
  The attention body's stored block, read at one entry: column half h of the 1024 x 128 block is head h of the pair.

  The body loads three 1024 x 128 blocks q, k, v (two heads side by side, 64 columns each). Its first context is one
  head of attention on the offset-0 column slices of q, k, v; its second is the same on the offset-64 slices; the two
  1024 x 64 contexts are laid side by side along the columns and truncated, which over the extended reals is the
  identity. So the entry at row i, column h · 64 + d is the specification's head of the three column halves h, at
  (i, d).
-/
import proofs.«178434_j73461120630936_2_alg».proof.Proof.Pay1b

noncomputable section

namespace Cert.KernelValue

open Cert.KernelIdeal Cert.KernelIdeal.Gen Idealize.ShloMosaic Idealize.ShloMosaic.ValueIdx

/-- Column h · 64 + d of the 128-wide block: channel d of head h of the pair. -/
abbrev headCol (h : Fin 2) (d : Fin 64) : Fin 128 :=
  ⟨h.val * 64 + d.val, by have := h.isLt; have := d.isLt; omega⟩

/-! ## The column slices at an index -/

/-- The offset-0 slice at (i, d) is the block at column d of head 0. -/
theorem sliceLo_apply (x : Vec Ideal S1024x128 .bf16) (i : Fin 1024) (d : Fin 64) :
    extractStridedSlice S1024x64 ![0, 0] x slices_S1024x128_o0_0_S1024x64 (ix2 i d) = x (ix2 i (headCol 0 d)) :=
  slice2_axis1_apply 0 x slices_S1024x128_o0_0_S1024x64 i d (headCol 0 d) (by simp [headCol])

/-- The offset-64 slice at (i, d) is the block at column d of head 1. -/
theorem sliceHi_apply (x : Vec Ideal S1024x128 .bf16) (i : Fin 1024) (d : Fin 64) :
    extractStridedSlice S1024x64 ![0, 64] x slices_S1024x128_o0_64_S1024x64 (ix2 i d) = x (ix2 i (headCol 1 d)) :=
  slice2_axis1_apply 64 x slices_S1024x128_o0_64_S1024x64 i d (headCol 1 d) (by simp [headCol])

/-! ## The body's three intermediate values, as the named steps on the slices -/

/-- The first context is one head on the offset-0 slices. -/
theorem pay5_eq (q k v : Vec Ideal S1024x128 .bf16) :
    k1_pay5 (F := Ideal) q k v
      = headOf (extractStridedSlice S1024x64 ![0, 0] q slices_S1024x128_o0_0_S1024x64)
          (extractStridedSlice S1024x64 ![0, 0] k slices_S1024x128_o0_0_S1024x64)
          (extractStridedSlice S1024x64 ![0, 0] v slices_S1024x128_o0_0_S1024x64) := by
  unfold k1_pay5 k1_pay2 k1_pay3 k1_pay4 headOf softmaxOf exposOf scoresOf
  rw [shapeCast_self, shapeCast_self, shapeCast_self]

/-- The second head's softmax is the softmax of the scores of the offset-64 slices. -/
theorem pay7_eq (q k : Vec Ideal S1024x128 .bf16) :
    k1_pay7 (F := Ideal) q k
      = softmaxOf (scoresOf (extractStridedSlice S1024x64 ![0, 64] q slices_S1024x128_o0_64_S1024x64)
          (extractStridedSlice S1024x64 ![0, 64] k slices_S1024x128_o0_64_S1024x64)) := by
  unfold k1_pay7 k1_pay2 k1_pay3 softmaxOf exposOf scoresOf
  rw [shapeCast_self, shapeCast_self]

/-- The second head's values are the offset-64 slice of v. -/
theorem pay6_eq (v : Vec Ideal S1024x128 .bf16) :
    k1_pay6 (F := Ideal) v = extractStridedSlice S1024x64 ![0, 64] v slices_S1024x128_o0_64_S1024x64 := by
  unfold k1_pay6 k1_pay4
  rw [shapeCast_self]

/-! ## The stored block at an index -/

/-- Columns [0, 64): head 0. -/
theorem pay1_head0 (q k v : Vec Ideal S1024x128 .bf16) (i : Fin 1024) (d : Fin 64) :
    k1_pay1 (F := Ideal) (k1_pay5 q k v) (k1_pay6 v) (k1_pay7 q k) (ix2 i (headCol 0 d))
      = Cert.Spec.head (fun i d => q (ix2 i (headCol 0 d))) (fun j d => k (ix2 j (headCol 0 d)))
          (fun j d => v (ix2 j (headCol 0 d))) i d := by
  unfold k1_pay1
  rw [truncf_apply]
  refine (concatenate_pair_apply_left (1 : Fin S1024x128.rank) _ _ concatenates_S1024x64_S1024x64_S1024x128_d1
    (ix2 i (headCol 0 d)) rfl (ix2 i d) ?_).trans ?_
  · intro b
    match b with
    | ⟨0, _⟩ => rfl
    | ⟨1, _⟩ => simp [headCol]
  · have hs : ∀ x : Vec Ideal S1024x128 .bf16,
        (fun (i : Fin 1024) (d : Fin 64) => extractStridedSlice S1024x64 ![0, 0] x slices_S1024x128_o0_0_S1024x64 (ix2 i d))
          = fun i d => x (ix2 i (headCol 0 d)) := fun x => funext fun i => funext fun d => sliceLo_apply x i d
    rw [pay5_eq, headOf_apply]
    exact congrFun (congrFun (congr (congr (congrArg Cert.Spec.head (hs q)) (hs k)) (hs v)) i) d

/-- Columns [64, 128): head 1. -/
theorem pay1_head1 (q k v : Vec Ideal S1024x128 .bf16) (i : Fin 1024) (d : Fin 64) :
    k1_pay1 (F := Ideal) (k1_pay5 q k v) (k1_pay6 v) (k1_pay7 q k) (ix2 i (headCol 1 d))
      = Cert.Spec.head (fun i d => q (ix2 i (headCol 1 d))) (fun j d => k (ix2 j (headCol 1 d)))
          (fun j d => v (ix2 j (headCol 1 d))) i d := by
  unfold k1_pay1
  rw [truncf_apply]
  refine (concatenate_pair_apply_right (1 : Fin S1024x128.rank) _ _ concatenates_S1024x64_S1024x64_S1024x128_d1
    (ix2 i (headCol 1 d)) rfl rfl (ix2 i d) ?_ ?_).trans ?_
  · intro b hb
    match b with
    | ⟨0, _⟩ => rfl
    | ⟨1, _⟩ => exact absurd rfl hb
  · show d.val + 64 = (headCol 1 d).val
    simp [headCol]; omega
  · have hs : ∀ x : Vec Ideal S1024x128 .bf16,
        (fun (i : Fin 1024) (d : Fin 64) => extractStridedSlice S1024x64 ![0, 64] x slices_S1024x128_o0_64_S1024x64 (ix2 i d))
          = fun i d => x (ix2 i (headCol 1 d)) := fun x => funext fun i => funext fun d => sliceHi_apply x i d
    rw [pay7_eq, pay6_eq]
    refine (headOf_apply _ _ _ i d).trans ?_
    exact congrFun (congrFun (congr (congr (congrArg Cert.Spec.head (hs q)) (hs k)) (hs v)) i) d

/-- The stored block at row i, column h · 64 + d: head h of the pair, at (i, d). -/
theorem pay1_apply (q k v : Vec Ideal S1024x128 .bf16) (h : Fin 2) (i : Fin 1024) (d : Fin 64) :
    k1_pay1 (F := Ideal) (k1_pay5 q k v) (k1_pay6 v) (k1_pay7 q k) (ix2 i (headCol h d))
      = Cert.Spec.head (fun i d => q (ix2 i (headCol h d))) (fun j d => k (ix2 j (headCol h d)))
          (fun j d => v (ix2 j (headCol h d))) i d := by
  match h with
  | ⟨0, _⟩ => exact pay1_head0 q k v i d
  | ⟨1, _⟩ => exact pay1_head1 q k v i d

end Cert.KernelValue

end
-- ==== Proof.BridgeAttn.lean ====
/-
  The attention call's result array is the specification's attention matrix.

  Entry (r, c) of the result is the body's stored block at (r % 1024, c % 128), computed from the three 1024 x 128
  blocks of the projected array Q at block row r / 1024 and block columns c / 128, c / 128 + 6, c / 128 + 12. Write
  b = r / 1024, i = r % 1024, n = c / 64, d = c % 64 and h = c % 128 / 64, so that n = 2 · (c / 128) + h and
  c % 128 = h · 64 + d. The stored block at column h · 64 + d is one head of attention on the column halves h of the
  three blocks. Row i' of a block is row 1024 · b + i' of Q; column h · 64 + d' of the first block is column
  128 · (c / 128) + h · 64 + d' = 64 · n + d' of Q, of the second 768 + 64 · n + d', of the third 1536 + 64 · n + d'
  (none of the sums reaches the array's extent, so reducing them modulo it changes nothing). These are the queries,
  keys and values of image b and head n, and one head of attention on them at (i, d) is the attention matrix at (r, c).
-/
import proofs.«178434_j73461120630936_2_alg».proof.Proof.Arr1
import proofs.«178434_j73461120630936_2_alg».proof.Proof.Pay1
import proofs.«178434_j73461120630936_2_alg».proof.Proof.Spec

noncomputable section

namespace Cert.Bridge

open Cert.KernelIdeal Cert.KernelIdeal.Gen Cert.KernelIdeal.Fr Cert.KernelValue Idealize.ShloMosaic Idealize.ShloMosaic.ValueIdx

/-- Two rank-2 indices with equal coordinate values are equal. -/
theorem ix2_congr {n0 n1 : Nat} {a a' : Fin n0} {b b' : Fin n1} (ha : a.val = a'.val) (hb : b.val = b'.val) :
    ix2 a b = ix2 a' b' := by
  rw [Fin.ext ha, Fin.ext hb]

/-- The block of Q at block row r / 1024 and block column c / 128 + 6 · part, read at row i and column d of its column
    half c % 128 / 64, is the query (part 0), key (1) or value (2) entry (i, d) of image r / 1024 and head c / 64. -/
theorem block_piece (Q : S8192x2304.Idx → EReal) (r : Fin 8192) (c : Fin 768) (part : Fin 3) (pv cb : Nat)
    (hpv : part.val = pv) (hcb : cb = c.val / 128 + 6 * pv) (h : Fin 2) (hh : h.val = c.val % 128 / 64)
    (i : Fin 1024) (d : Fin 64) :
    blockOf1 (F := Ideal) Q (r.val / 1024) cb (ix2 i (headCol h d))
      = Cert.Spec.piece (fun r o => Q (ix2 r o)) part (⟨r.val / 1024, by omega⟩ : Fin 8) (⟨c.val / 64, by omega⟩ : Fin 12) i d := by
  have hr := r.isLt; have hc := c.isLt; have hp := part.isLt; have hi := i.isLt; have hd := d.isLt
  show Q (ix2 _ _) = Q (ix2 (Cert.Spec.row _ i) (Cert.Spec.col part _ d))
  refine congrArg Q (ix2_congr ?_ ?_)
  · show (1024 * (r.val / 1024) + i.val) % 8192 = r.val / 1024 * 1024 + i.val
    omega
  · show (128 * cb + (h.val * 64 + d.val)) % 2304 = part.val * 768 + c.val / 64 * 64 + d.val
    omega

/-- THE ATTENTION CALL COMPUTES THE ATTENTION MATRIX: its result array at (r, c), as a function of the projected array
    it reads, is the specification's attention matrix of that array at (r, c). -/
theorem G1_attn (Q : S8192x2304.Idx → EReal) (r : Fin 8192) (c : Fin 768) :
    G1 (F := Ideal) Q (ix2 r c) = Cert.Spec.attn (fun r o => Q (ix2 r o)) r c := by
  have hr := r.isLt; have hc := c.isLt
  have e : (ix2 (⟨r.val % 1024, Nat.mod_lt _ (by decide)⟩ : Fin 1024) (⟨c.val % 128, Nat.mod_lt _ (by decide)⟩ : Fin 128))
      = ix2 (⟨r.val % 1024, Nat.mod_lt _ (by decide)⟩ : Fin 1024)
          (headCol (⟨c.val % 128 / 64, by omega⟩ : Fin 2) (⟨c.val % 64, Nat.mod_lt _ (by decide)⟩ : Fin 64)) :=
    ix2_congr rfl (by show c.val % 128 = c.val % 128 / 64 * 64 + c.val % 64; omega)
  have hq : (fun (i' : Fin 1024) (d' : Fin 64) => blockOf1 (F := Ideal) Q (r.val / 1024) (c.val / 128)
        (ix2 i' (headCol (⟨c.val % 128 / 64, by omega⟩ : Fin 2) d')))
      = Cert.Spec.piece (fun r o => Q (ix2 r o)) 0 (⟨r.val / 1024, by omega⟩ : Fin 8) (⟨c.val / 64, by omega⟩ : Fin 12) :=
    funext fun i' => funext fun d' => block_piece Q r c 0 0 _ rfl rfl _ rfl i' d'
  have hk : (fun (i' : Fin 1024) (d' : Fin 64) => blockOf1 (F := Ideal) Q (r.val / 1024) (c.val / 128 + 6)
        (ix2 i' (headCol (⟨c.val % 128 / 64, by omega⟩ : Fin 2) d')))
      = Cert.Spec.piece (fun r o => Q (ix2 r o)) 1 (⟨r.val / 1024, by omega⟩ : Fin 8) (⟨c.val / 64, by omega⟩ : Fin 12) :=
    funext fun i' => funext fun d' => block_piece Q r c 1 1 _ rfl rfl _ rfl i' d'
  have hv : (fun (i' : Fin 1024) (d' : Fin 64) => blockOf1 (F := Ideal) Q (r.val / 1024) (c.val / 128 + 12)
        (ix2 i' (headCol (⟨c.val % 128 / 64, by omega⟩ : Fin 2) d')))
      = Cert.Spec.piece (fun r o => Q (ix2 r o)) 2 (⟨r.val / 1024, by omega⟩ : Fin 8) (⟨c.val / 64, by omega⟩ : Fin 12) :=
    funext fun i' => funext fun d' => block_piece Q r c 2 2 _ rfl rfl _ rfl i' d'
  unfold G1
  show k1_pay1 (F := Ideal)
      (k1_pay5 (blockOf1 Q (r.val / 1024) (c.val / 128)) (blockOf1 Q (r.val / 1024) (c.val / 128 + 6))
        (blockOf1 Q (r.val / 1024) (c.val / 128 + 12)))
      (k1_pay6 (blockOf1 Q (r.val / 1024) (c.val / 128 + 12)))
      (k1_pay7 (blockOf1 Q (r.val / 1024) (c.val / 128)) (blockOf1 Q (r.val / 1024) (c.val / 128 + 6)))
      (ix2 (⟨r.val % 1024, Nat.mod_lt _ (by decide)⟩ : Fin 1024) (⟨c.val % 128, Nat.mod_lt _ (by decide)⟩ : Fin 128)) = _
  rw [e, pay1_apply, hq, hk, hv]
  rfl

end Cert.Bridge

end
-- ==== Proof.Bridge.lean ====
/-
  The kernel program's result is the specified function, over the extended reals.

  The program's result, as a function of its five arguments, is three whole-array functions composed through layout
  operations: lay the input flat, project (first dense layer), attend, project again (second dense layer), fold the
  flat result back. Each of these has been identified separately with the corresponding layer of the specification,
  entry by entry: folding back reads row b · 1024 + h · 32 + w; the second projection is a dense layer of whatever
  matrix it is handed; the attention call's array is the attention matrix of the array it reads; the first projection
  is a dense layer of the flat input. The specification is the same composition, so the two agree: working from the
  outside in, the outer two identifications apply directly, and the inner two say that the matrices the outer layers
  are applied to are equal as functions.
-/
import proofs.«178434_j73461120630936_2_alg».proof.Proof.KernelRun
import proofs.«178434_j73461120630936_2_alg».proof.Proof.Bridge1
import proofs.«178434_j73461120630936_2_alg».proof.Proof.Bridge1b
import proofs.«178434_j73461120630936_2_alg».proof.Proof.BridgeAttn

noncomputable section

namespace Cert.Bridge

open Cert.KernelIdeal Cert.KernelIdeal.Gen Cert.KernelIdeal.Fr Idealize.ShloMosaic Idealize.ShloMosaic.ValueIdx

/-- Project, attend, project: the kernel program's result array is the specification's, for all five arguments. -/
theorem KV_eq (x : S8x32x32x768.Idx → EReal) (wq : S2304x768.Idx → EReal) (bq : S2304.Idx → EReal)
    (wp : S768x768.Idx → EReal) (bp : S768.Idx → EReal) :
    Cert.KernelIdeal.Fr.KV (F := Ideal) x wq bq wp bp = Cert.Spec.G x wq bq wp bp := by
  funext i
  -- folding back, then the second dense layer: each by the statement about the outermost operation
  refine (unflat_apply _ i).trans ((G2_dense _ wp bp (Cert.Spec.tok i) (i 3)).trans ?_)
  -- the matrix the second dense layer is applied to is the attention matrix of the first dense layer
  have hA : (fun (r : Fin 8192) (k : Fin 768) =>
        G1 (F := Ideal)
          (G0 (F := Ideal) (shapeCast S8192x768 x shapeCasts_S8x32x32x768_S8192x768)
            (truncf (F := Ideal) (φ := .f32) .bf16 (transpose S768x2304 [1, 0] wq transposes_S2304x768_S768x2304_1_0) bitsLt_bf16_f32)
            (shapeCast S1x2304 bq shapeCasts_S2304_S1x2304)) (ix2 r k))
      = Cert.Spec.attn (Cert.Spec.dense (Cert.Spec.flat x) (fun o c => wq (ix2 o c)) (fun o => bq (ix1 o))) :=
    funext fun r => funext fun k =>
      (G1_attn _ r k).trans
        (congrArg (fun Z => Cert.Spec.attn Z r k) (funext fun r' => funext fun o => G0_dense x wq bq r' o))
  exact congrArg
    (fun Z => Cert.Spec.dense Z (fun o c => wp (ix2 o c)) (fun o => bp (ix1 o)) (Cert.Spec.tok i) (i 3)) hA

end Cert.Bridge

end
-- ==== Proof.RefRead.lean ====
/-
  The reference program's run, read one operation at a time: this module only brings the generated run and
  read-at-an-index lemmas of the reference into the certificate, for the modules that state its value.
-/
import proofs.«178434_j73461120630936_2_alg».proof.Proof.Gen.ReferenceIdeal.Run
import proofs.«178434_j73461120630936_2_alg».proof.Proof.Gen.ReferenceIdeal.Read
-- ==== Proof.RefValue1.lean ====
/-
  The reference's first stage, read one entry at a time: the sum of products its first contraction forms at
  (b, h, w, o), plus the bias at o, is the dense layer of the specification at row b · 1024 + h · 32 + w, column o,
  of the input laid flat. Everything later in the reference reads this matrix only through its entries.
-/
import proofs.«178434_j73461120630936_2_alg».proof.Proof.Spec
import proofs.«178434_j73461120630936_2_alg».proof.Proof.RefRead

noncomputable section

namespace Cert.RefValue

open Cert.ReferenceIdeal Cert.ReferenceIdeal.Gen Cert.ReferenceIdeal.Read Idealize.ShloMosaic Idealize.ShloMosaic.ValueIdx

/-- Row `b · 1024 + h · 32 + w` of the flat token axis, from the three coordinates. -/
def rowOf (b : Fin 8) (h w : Fin 32) : Fin 8192 := ⟨b.val * 1024 + h.val * 32 + w.val, by omega⟩

/-- The projected matrix of the specification: the flat input through the first dense layer. -/
def QKV (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) : Fin 8192 → Fin 2304 → EReal :=
  Cert.Spec.dense (Cert.Spec.flat x0) (fun o c => x1 (ix2 o c)) (fun o => x2 (ix1 o))

/-- The token row of an index of the 8 × 32 × 32 × 768 array is the row of its first three coordinates. -/
theorem tok_ix4 (b : Fin 8) (h w : Fin 32) (c : Fin 768) : Cert.Spec.tok (ix4 b h w c) = rowOf b h w := rfl

/-- The flat input at the row of (b, h, w) is the input at (b, h, w): dividing the row back gives the coordinates. -/
theorem flat_rowOf (x0 : (⟨S8x32x32x768, .f32⟩ : BufTy).Contents (Elt Ideal)) (b : Fin 8) (h w : Fin 32) (k : Fin 768) :
    Cert.Spec.flat x0 (rowOf b h w) k = x0 (ix4 b h w k) := by
  unfold Cert.Spec.flat rowOf
  refine congrArg x0 (funext fun a => Fin.ext ?_)
  have hb := b.isLt; have hh := h.isLt; have hw := w.isLt
  match a with
  | ⟨0, _⟩ => show (b.val * 1024 + h.val * 32 + w.val) / 1024 = b.val; omega
  | ⟨1, _⟩ => show (b.val * 1024 + h.val * 32 + w.val) % 1024 / 32 = h.val; omega
  | ⟨2, _⟩ => show (b.val * 1024 + h.val * 32 + w.val) % 32 = w.val; omega
  | ⟨3, _⟩ => rfl

/-- The reference's projected array at (b, h, w, o) is the specification's projected matrix at the row of (b, h, w),
    column o. -/
theorem qkv_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (h w : Fin 32) (o : Fin 2304) :
    val_main_v3 (F := Ideal) x0 x1 x2 (ix4 b h w o) = QKV x0 x1 x2 (rowOf b h w) o := by
  rw [val_main_v3_apply, val_main_v0_apply, val_main_v2_apply, val_main_v1_apply]
  unfold QKV Cert.Spec.dense
  rw [Ideal.addf_def]
  refine congrArg₂ (· + ·) (Finset.sum_congr rfl fun k _ => ?_) ?_
  · rw [flat_rowOf]
    refine congrArg₂ (· * ·) (congrArg x0 (funext fun a => ?_)) (congrArg x1 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
  · exact congrArg x2 (funext fun a => by match a with | ⟨0, _⟩ => rfl)

end Cert.RefValue

end
-- ==== Proof.RefValue2.lean ====
/-
  The reference cuts its projected array into heads by a reshape, a transpose, a second reshape, three slices and
  three more reshapes. Read at an index each of these only renames coordinates: entry (bn, i, d) of the queries (keys,
  values) with bn = b · 12 + n is the projected matrix at row b · 1024 + i and column part · 768 + n · 64 + d for
  part 0 (1, 2), which is the specification's piece of image b and head n.
-/
import proofs.«178434_j73461120630936_2_alg».proof.Proof.RefValue1

noncomputable section

namespace Cert.RefValue

open Cert.ReferenceIdeal Cert.ReferenceIdeal.Gen Cert.ReferenceIdeal.Read Idealize.ShloMosaic Idealize.ShloMosaic.ValueIdx

/-- The five-axis view (image, token, part, head, channel) of the projected array. -/
theorem v4_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (i : Fin 1024) (p : Fin 3) (n : Fin 12) (d : Fin 64) :
    val_main_v4 (F := Ideal) x0 x1 x2 (ix5 b i p n d) = QKV x0 x1 x2 (Cert.Spec.row b i) (Cert.Spec.col p n d) := by
  have hb := b.isLt; have hi := i.isLt; have hp := p.isLt; have hn := n.isLt; have hd := d.isLt
  have e : idx_main_v4 (ix5 b i p n d)
      = ix4 b (⟨i.val / 32, by omega⟩ : Fin 32) (⟨i.val % 32, by omega⟩ : Fin 32) (Cert.Spec.col p n d) :=
    funext fun a => Fin.ext (by
      match a with
      | ⟨0, _⟩ => show ((((b.val * 1024 + i.val) * 3 + p.val) * 12 + n.val) * 64 + d.val) / 2359296 = b.val; omega
      | ⟨1, _⟩ => show ((((b.val * 1024 + i.val) * 3 + p.val) * 12 + n.val) * 64 + d.val) / 73728 % 32 = i.val / 32; omega
      | ⟨2, _⟩ => show ((((b.val * 1024 + i.val) * 3 + p.val) * 12 + n.val) * 64 + d.val) / 2304 % 32 = i.val % 32; omega
      | ⟨3, _⟩ => show ((((b.val * 1024 + i.val) * 3 + p.val) * 12 + n.val) * 64 + d.val) % 2304 = p.val * 768 + n.val * 64 + d.val; omega)
  rw [val_main_v4_apply, e, qkv_at]
  refine congrArg (fun r => QKV x0 x1 x2 r (Cert.Spec.col p n d)) (Fin.ext ?_)
  show b.val * 1024 + i.val / 32 * 32 + i.val % 32 = b.val * 1024 + i.val
  omega

/-- The transposed view (part, image, head, token, channel). -/
theorem v5_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (p : Fin 3) (b : Fin 8) (n : Fin 12) (i : Fin 1024) (d : Fin 64) :
    val_main_v5 (F := Ideal) x0 x1 x2 (ix5 p b n i d) = QKV x0 x1 x2 (Cert.Spec.row b i) (Cert.Spec.col p n d) := by
  have e : idx_main_v5 (ix5 p b n i d) = ix5 b i p n d :=
    funext fun a => by
      match a with
      | ⟨0, _⟩ => rfl
      | ⟨1, _⟩ => rfl
      | ⟨2, _⟩ => rfl
      | ⟨3, _⟩ => rfl
      | ⟨4, _⟩ => rfl
  rw [val_main_v5_apply, e, v4_at]

/-- Image and head merged into one axis of 96: entry `bn = b · 12 + n`. -/
theorem v6_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (p : Fin 3) (b : Fin 8) (n : Fin 12) (bn : Fin 96) (hbn : bn.val = b.val * 12 + n.val)
    (i : Fin 1024) (d : Fin 64) :
    val_main_v6 (F := Ideal) x0 x1 x2 (ix4 p bn i d) = QKV x0 x1 x2 (Cert.Spec.row b i) (Cert.Spec.col p n d) := by
  have hb := b.isLt; have hi := i.isLt; have hp := p.isLt; have hn := n.isLt; have hd := d.isLt
  have e : idx_main_v6 (ix4 p bn i d) = ix5 p b n i d :=
    funext fun a => Fin.ext (by
      match a with
      | ⟨0, _⟩ => show (((p.val * 96 + bn.val) * 1024 + i.val) * 64 + d.val) / 6291456 = p.val; omega
      | ⟨1, _⟩ => show (((p.val * 96 + bn.val) * 1024 + i.val) * 64 + d.val) / 786432 % 8 = b.val; omega
      | ⟨2, _⟩ => show (((p.val * 96 + bn.val) * 1024 + i.val) * 64 + d.val) / 65536 % 12 = n.val; omega
      | ⟨3, _⟩ => show (((p.val * 96 + bn.val) * 1024 + i.val) * 64 + d.val) / 64 % 1024 = i.val; omega
      | ⟨4, _⟩ => show (((p.val * 96 + bn.val) * 1024 + i.val) * 64 + d.val) % 64 = d.val; omega)
  rw [val_main_v6_apply, e, v5_at]

/-- Dropping the leading unit axis of a slice: the index function of the three reshapes. -/
theorem drop_unit (bn : Fin 96) (i : Fin 1024) (d : Fin 64) :
    idx_main_v8 (ix3 bn i d) = ix4 (0 : Fin 1) bn i d := by
  have hbn := bn.isLt; have hi := i.isLt; have hd := d.isLt
  exact funext fun a => Fin.ext (by
    match a with
    | ⟨0, _⟩ => rfl
    | ⟨1, _⟩ => show ((bn.val * 1024 + i.val) * 64 + d.val) / 65536 % 96 = bn.val; omega
    | ⟨2, _⟩ => show ((bn.val * 1024 + i.val) * 64 + d.val) / 64 % 1024 = i.val; omega
    | ⟨3, _⟩ => show ((bn.val * 1024 + i.val) * 64 + d.val) % 64 = d.val; omega)

/-- The queries: head `bn = b · 12 + n` at token `i`, channel `d`. -/
theorem q_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) (d : Fin 64) :
    val_main_v8 (F := Ideal) x0 x1 x2 (ix3 bn i d) = Cert.Spec.piece (QKV x0 x1 x2) 0 b n i d := by
  have e : idx_main_v7 (ix4 (0 : Fin 1) bn i d) = ix4 (0 : Fin 3) bn i d :=
    funext fun a => Fin.ext (by
      match a with
      | ⟨0, _⟩ => rfl
      | ⟨1, _⟩ => rfl
      | ⟨2, _⟩ => rfl
      | ⟨3, _⟩ => rfl)
  rw [val_main_v8_apply, drop_unit, val_main_v7_apply, e, v6_at x0 x1 x2 0 b n bn hbn]
  rfl

/-- The keys. -/
theorem k_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) (d : Fin 64) :
    val_main_v10 (F := Ideal) x0 x1 x2 (ix3 bn i d) = Cert.Spec.piece (QKV x0 x1 x2) 1 b n i d := by
  have e : idx_main_v9 (ix4 (0 : Fin 1) bn i d) = ix4 (1 : Fin 3) bn i d :=
    funext fun a => Fin.ext (by
      match a with
      | ⟨0, _⟩ => rfl
      | ⟨1, _⟩ => rfl
      | ⟨2, _⟩ => rfl
      | ⟨3, _⟩ => rfl)
  rw [val_main_v10_apply, show idx_main_v10 (ix3 bn i d) = ix4 (0 : Fin 1) bn i d from drop_unit bn i d, val_main_v9_apply, e,
    v6_at x0 x1 x2 1 b n bn hbn]
  rfl

/-- The values. -/
theorem v_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) (d : Fin 64) :
    val_main_v12 (F := Ideal) x0 x1 x2 (ix3 bn i d) = Cert.Spec.piece (QKV x0 x1 x2) 2 b n i d := by
  have e : idx_main_v11 (ix4 (0 : Fin 1) bn i d) = ix4 (2 : Fin 3) bn i d :=
    funext fun a => Fin.ext (by
      match a with
      | ⟨0, _⟩ => rfl
      | ⟨1, _⟩ => rfl
      | ⟨2, _⟩ => rfl
      | ⟨3, _⟩ => rfl)
  rw [val_main_v12_apply, show idx_main_v12 (ix3 bn i d) = ix4 (0 : Fin 1) bn i d from drop_unit bn i d, val_main_v11_apply, e,
    v6_at x0 x1 x2 2 b n bn hbn]
  rfl

end Cert.RefValue

end
-- ==== Proof.RefValue3.lean ====
/-
  One head of the reference, read one entry at a time. For the head `bn = b · 12 + n` the reference scales the
  queries by the eighth, contracts them with the keys over the 64 channels (the scores), takes each row's maximum as a
  fold of `max` from minus infinity, and once more against minus infinity (which changes nothing: the fold already
  lies above its starting value), subtracts it, exponentiates, sums each row from zero, divides, and contracts with the
  values over the 1024 tokens. These are, entry by entry, the specification's score, row maximum, shifted exponential,
  softmax and head output of the pieces of image b and head n.
-/
import proofs.«178434_j73461120630936_2_alg».proof.Proof.RefValue2
import Idealize.ShloMosaic.PureOps.Reduce

noncomputable section

namespace Cert.RefValue

open Cert.ReferenceIdeal Cert.ReferenceIdeal.Gen Cert.ReferenceIdeal.Read Idealize.ShloMosaic Idealize.ShloMosaic.ValueIdx

/-- The specification's queries of image b, head n. -/
abbrev qH (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) : Fin 1024 → Fin 64 → EReal := Cert.Spec.piece (QKV x0 x1 x2) 0 b n
/-- The specification's keys of image b, head n. -/
abbrev kH (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) : Fin 1024 → Fin 64 → EReal := Cert.Spec.piece (QKV x0 x1 x2) 1 b n
/-- The specification's values of image b, head n. -/
abbrev vH (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) : Fin 1024 → Fin 64 → EReal := Cert.Spec.piece (QKV x0 x1 x2) 2 b n
/-- The specification's scores of image b, head n. -/
abbrev sH (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) : Fin 1024 → Fin 1024 → EReal :=
  Cert.Spec.score (qH x0 x1 x2 b n) (kH x0 x1 x2 b n)

/-- The scaled queries. -/
theorem scaled_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) (d : Fin 64) :
    val_main_v14 (F := Ideal) x0 x1 x2 (ix3 bn i d) = qH x0 x1 x2 b n i d * Cert.Spec.scaleW := by
  rw [val_main_v14_apply, q_at x0 x1 x2 b n bn hbn, val_main_v13_apply, val_main_cst_apply, Ideal.mulf_def, Ideal.ofBits_def]
  rfl

/-- The scores: the scaled query row `i` against the key row `j`, summed over the 64 channels. -/
theorem score_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i j : Fin 1024) :
    val_main_v15 (F := Ideal) x0 x1 x2 (ix3 bn i j) = sH x0 x1 x2 b n i j := by
  rw [val_main_v15_apply]
  unfold sH Cert.Spec.score
  refine Finset.sum_congr rfl fun d _ => ?_
  have el : lidx_main_v15 (ix3 bn i j) d = ix3 bn i d :=
    funext fun a => by
      match a with
      | ⟨0, _⟩ => rfl
      | ⟨1, _⟩ => rfl
      | ⟨2, _⟩ => rfl
  have er : ridx_main_v15 (ix3 bn i j) d = ix3 bn j d :=
    funext fun a => by
      match a with
      | ⟨0, _⟩ => rfl
      | ⟨1, _⟩ => rfl
      | ⟨2, _⟩ => rfl
  rw [el, er, scaled_at x0 x1 x2 b n bn hbn, k_at x0 x1 x2 b n bn hbn]

/-- Putting column `k` back into the reduced index (bn, i) gives (bn, i, k). -/
theorem lift_ix3 (h : S96x1024x1024.Reduces [2] S96x1024) (bn : Fin 96) (i : Fin 1024) (k : Fin (S96x1024x1024.size 2)) :
    h.lift (ix2 bn i) k = ix3 bn i (⟨k.val, k.isLt⟩ : Fin 1024) := by
  funext c; apply Fin.ext
  fin_cases c <;> rfl

/-- The reference's max-reduce of the scores over a row is the fold of `max` over the row from minus infinity. -/
theorem fold_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) :
    val_main_v16 (F := Ideal) x0 x1 x2 (ix2 bn i) = Cert.Spec.rowMax (sH x0 x1 x2 b n) i := by
  have h : S96x1024x1024.Reduces [2] S96x1024 := by decide
  unfold val_main_v16
  rw [Host.reduce_eq_fold_single FloatOps.maximumf _ _ reducesTo_S96x1024x1024_S96x1024_d2 h h_S_]
  have hf : (val_main_v15 (F := Ideal) x0 x1 x2 ∘ h.lift (ix2 bn i)) = fun k : Fin 1024 => sH x0 x1 x2 b n i k :=
    funext fun k => (congrArg (val_main_v15 (F := Ideal) x0 x1 x2) (lift_ix3 h bn i k)).trans (score_at x0 x1 x2 b n bn hbn i ⟨k.val, k.isLt⟩)
  exact congrArg (fun f => Finset.fold max Cert.Spec.negInf f (Finset.univ : Finset (Fin 1024))) hf

/-- The second maximum against minus infinity changes nothing: the row maximum is the specification's. -/
theorem rowmax_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) :
    val_main_v18 (F := Ideal) x0 x1 x2 (ix2 bn i) = Cert.Spec.rowMax (sH x0 x1 x2 b n) i := by
  rw [val_main_v18_apply, val_main_v17_apply, val_main_cst_1_apply, Ideal.maximumf_def, Ideal.ofBits_def, fold_at x0 x1 x2 b n bn hbn]
  exact max_eq_right ((Finset.le_fold_max _).2 (Or.inl le_rfl))

/-- The shifted exponentials. -/
theorem expo_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i j : Fin 1024) :
    val_main_v22 (F := Ideal) x0 x1 x2 (ix3 bn i j) = Cert.Spec.expo (sH x0 x1 x2 b n) i j := by
  have e : idx_main_v19 (idx_main_v20 (ix3 bn i j)) = ix2 bn i :=
    funext fun a => by
      match a with
      | ⟨0, _⟩ => rfl
      | ⟨1, _⟩ => rfl
  rw [val_main_v22_apply, val_main_v21_apply, val_main_v20_apply, val_main_v19_apply, e, Ideal.hostUnary_exp_def, Ideal.subf_def,
    score_at x0 x1 x2 b n bn hbn, rowmax_at x0 x1 x2 b n bn hbn]
  rfl

/-- A row's sum of shifted exponentials: the reference starts from the zero word. -/
theorem sum_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) :
    val_main_v23 (F := Ideal) x0 x1 x2 (ix2 bn i) = ∑ j' : Fin 1024, Cert.Spec.expo (sH x0 x1 x2 b n) i j' := by
  rw [val_main_v23_apply, val_main_cst_2_apply, Ideal.ofBits_def, Ideal.ofBits_zero_f32, zero_add]
  refine Finset.sum_congr rfl fun j _ => ?_
  have e : idx_main_v23 (ix2 bn i) j = ix3 bn i j :=
    funext fun a => by
      match a with
      | ⟨0, _⟩ => rfl
      | ⟨1, _⟩ => rfl
      | ⟨2, _⟩ => rfl
  rw [e, expo_at x0 x1 x2 b n bn hbn]

/-- The softmax. -/
theorem prob_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i j : Fin 1024) :
    val_main_v26 (F := Ideal) x0 x1 x2 (ix3 bn i j) = Cert.Spec.prob (sH x0 x1 x2 b n) i j := by
  have e : idx_main_v24 (idx_main_v25 (ix3 bn i j)) = ix2 bn i :=
    funext fun a => by
      match a with
      | ⟨0, _⟩ => rfl
      | ⟨1, _⟩ => rfl
  rw [val_main_v26_apply, val_main_v25_apply, val_main_v24_apply, e, Ideal.hostDivf_def, expo_at x0 x1 x2 b n bn hbn, sum_at x0 x1 x2 b n bn hbn]
  rfl

/-- The head's output: the softmax row `i` against the value column `d`, summed over the 1024 tokens. -/
theorem head_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (bn : Fin 96) (hbn : bn.val = b.val * 12 + n.val) (i : Fin 1024) (d : Fin 64) :
    val_main_v27 (F := Ideal) x0 x1 x2 (ix3 bn i d)
      = Cert.Spec.head (qH x0 x1 x2 b n) (kH x0 x1 x2 b n) (vH x0 x1 x2 b n) i d := by
  rw [val_main_v27_apply]
  unfold Cert.Spec.head
  refine Finset.sum_congr rfl fun j _ => ?_
  have el : lidx_main_v27 (ix3 bn i d) j = ix3 bn i j :=
    funext fun a => by
      match a with
      | ⟨0, _⟩ => rfl
      | ⟨1, _⟩ => rfl
      | ⟨2, _⟩ => rfl
  have er : ridx_main_v27 (ix3 bn i d) j = ix3 bn j d :=
    funext fun a => by
      match a with
      | ⟨0, _⟩ => rfl
      | ⟨1, _⟩ => rfl
      | ⟨2, _⟩ => rfl
  rw [el, er, prob_at x0 x1 x2 b n bn hbn, v_at x0 x1 x2 b n bn hbn]

end Cert.RefValue

end
-- ==== Proof.RefValue4.lean ====
/-
  The end of the reference. The heads' outputs, an array over (head bn, token, channel), are reshaped to
  (image, head, h, w, channel), transposed to (image, h, w, head, channel) and reshaped to 8 × 32 × 32 × 768: entry
  (b, h, w, c) is head c / 64 of image b at token h · 32 + w, channel c % 64, which is the specification's attention
  matrix at row b · 1024 + h · 32 + w, column c. The last contraction, entry by entry, is the attention row against a
  row of the output weights.
-/
import proofs.«178434_j73461120630936_2_alg».proof.Proof.RefValue3

noncomputable section

namespace Cert.RefValue

open Cert.ReferenceIdeal Cert.ReferenceIdeal.Gen Cert.ReferenceIdeal.Read Idealize.ShloMosaic Idealize.ShloMosaic.ValueIdx

/-- The attention matrix at the row of (b, h, w): its image is b and its token h · 32 + w. -/
theorem attn_rowOf (Q : Fin 8192 → Fin 2304 → EReal) (b : Fin 8) (h w : Fin 32) (c : Fin 768) :
    Cert.Spec.attn Q (rowOf b h w) c
      = Cert.Spec.head (Cert.Spec.piece Q 0 b (⟨c.val / 64, by omega⟩ : Fin 12)) (Cert.Spec.piece Q 1 b (⟨c.val / 64, by omega⟩ : Fin 12))
          (Cert.Spec.piece Q 2 b (⟨c.val / 64, by omega⟩ : Fin 12)) (⟨h.val * 32 + w.val, by omega⟩ : Fin 1024)
          (⟨c.val % 64, Nat.mod_lt _ (by decide)⟩ : Fin 64) := by
  have hb := b.isLt; have hh := h.isLt; have hw := w.isLt
  have eb : (⟨(rowOf b h w).val / 1024, by omega⟩ : Fin 8) = b :=
    Fin.ext (by show (b.val * 1024 + h.val * 32 + w.val) / 1024 = b.val; omega)
  have ei : (⟨(rowOf b h w).val % 1024, Nat.mod_lt _ (by decide)⟩ : Fin 1024) = (⟨h.val * 32 + w.val, by omega⟩ : Fin 1024) :=
    Fin.ext (by show (b.val * 1024 + h.val * 32 + w.val) % 1024 = h.val * 32 + w.val; omega)
  unfold Cert.Spec.attn
  rw [eb, ei]

/-- The heads' outputs regrouped as (image, head, h, w, channel). -/
theorem ctx5_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (n : Fin 12) (h w : Fin 32) (d : Fin 64) :
    val_main_v28 (F := Ideal) x0 x1 x2 (ix5 b n h w d)
      = Cert.Spec.head (qH x0 x1 x2 b n) (kH x0 x1 x2 b n) (vH x0 x1 x2 b n) (⟨h.val * 32 + w.val, by omega⟩ : Fin 1024) d := by
  have hb := b.isLt; have hn := n.isLt; have hh := h.isLt; have hw := w.isLt; have hd := d.isLt
  have e : idx_main_v28 (ix5 b n h w d)
      = ix3 (⟨b.val * 12 + n.val, by omega⟩ : Fin 96) (⟨h.val * 32 + w.val, by omega⟩ : Fin 1024) d :=
    funext fun a => Fin.ext (by
      match a with
      | ⟨0, _⟩ => show ((((b.val * 12 + n.val) * 32 + h.val) * 32 + w.val) * 64 + d.val) / 65536 = b.val * 12 + n.val; omega
      | ⟨1, _⟩ => show ((((b.val * 12 + n.val) * 32 + h.val) * 32 + w.val) * 64 + d.val) / 64 % 1024 = h.val * 32 + w.val; omega
      | ⟨2, _⟩ => show ((((b.val * 12 + n.val) * 32 + h.val) * 32 + w.val) * 64 + d.val) % 64 = d.val; omega)
  rw [val_main_v28_apply, e, head_at x0 x1 x2 b n ⟨b.val * 12 + n.val, by omega⟩ rfl]

/-- The reference's attention array at (b, h, w, c) is the specification's attention matrix at the row of (b, h, w). -/
theorem attn_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (b : Fin 8) (h w : Fin 32) (c : Fin 768) :
    val_main_v30 (F := Ideal) x0 x1 x2 (ix4 b h w c) = Cert.Spec.attn (QKV x0 x1 x2) (rowOf b h w) c := by
  have hb := b.isLt; have hh := h.isLt; have hw := w.isLt; have hc := c.isLt
  have e30 : idx_main_v30 (ix4 b h w c)
      = ix5 b h w (⟨c.val / 64, by omega⟩ : Fin 12) (⟨c.val % 64, Nat.mod_lt _ (by decide)⟩ : Fin 64) :=
    funext fun a => Fin.ext (by
      match a with
      | ⟨0, _⟩ => show (((b.val * 32 + h.val) * 32 + w.val) * 768 + c.val) / 786432 = b.val; omega
      | ⟨1, _⟩ => show (((b.val * 32 + h.val) * 32 + w.val) * 768 + c.val) / 24576 % 32 = h.val; omega
      | ⟨2, _⟩ => show (((b.val * 32 + h.val) * 32 + w.val) * 768 + c.val) / 768 % 32 = w.val; omega
      | ⟨3, _⟩ => show (((b.val * 32 + h.val) * 32 + w.val) * 768 + c.val) / 64 % 12 = c.val / 64; omega
      | ⟨4, _⟩ => show (((b.val * 32 + h.val) * 32 + w.val) * 768 + c.val) % 64 = c.val % 64; omega)
  have e29 : idx_main_v29 (ix5 b h w (⟨c.val / 64, by omega⟩ : Fin 12) (⟨c.val % 64, Nat.mod_lt _ (by decide)⟩ : Fin 64))
      = ix5 b (⟨c.val / 64, by omega⟩ : Fin 12) h w (⟨c.val % 64, Nat.mod_lt _ (by decide)⟩ : Fin 64) :=
    funext fun a => by
      match a with
      | ⟨0, _⟩ => rfl
      | ⟨1, _⟩ => rfl
      | ⟨2, _⟩ => rfl
      | ⟨3, _⟩ => rfl
      | ⟨4, _⟩ => rfl
  rw [val_main_v30_apply, e30, val_main_v29_apply, e29, ctx5_at, attn_rowOf]

/-- The last contraction at (b, h, w, c): the attention row against row `c` of the output weights. -/
theorem proj_at (x0 : (⟨S8x32x32x768, .f32⟩ : BufTy).Contents (Elt Ideal)) (x1 : (⟨S2304x768, .f32⟩ : BufTy).Contents (Elt Ideal))
    (x2 : (⟨S2304, .f32⟩ : BufTy).Contents (Elt Ideal)) (x3 : (⟨S768x768, .f32⟩ : BufTy).Contents (Elt Ideal)) (b : Fin 8) (h w : Fin 32) (c : Fin 768) :
    val_main_v31 (F := Ideal) x0 x1 x2 x3 (ix4 b h w c)
      = ∑ k : Fin 768, Cert.Spec.attn (QKV x0 x1 x2) (rowOf b h w) k * x3 (ix2 c k) := by
  rw [val_main_v31_apply]
  refine Finset.sum_congr rfl fun k _ => ?_
  have el : lidx_main_v31 (ix4 b h w c) k = ix4 b h w k :=
    funext fun a => by
      match a with
      | ⟨0, _⟩ => rfl
      | ⟨1, _⟩ => rfl
      | ⟨2, _⟩ => rfl
      | ⟨3, _⟩ => rfl
  have er : ridx_main_v31 (ix4 b h w c) k = ix2 c k :=
    funext fun a => by
      match a with
      | ⟨0, _⟩ => rfl
      | ⟨1, _⟩ => rfl
  rw [el, er, attn_at]

end Cert.RefValue

end
-- ==== Proof.RefValue.lean ====
/-
  The reference computes the specification. Entry (b, h, w, c) of its last array is the last contraction there plus
  the output bias at c; the contraction is the attention row b · 1024 + h · 32 + w against row c of the output weights
  (the earlier modules, stage by stage), so the entry is the second dense layer of the attention matrix of the first
  dense layer of the flat input: the specification's result at (b, h, w, c).
-/
import proofs.«178434_j73461120630936_2_alg».proof.Proof.RefValue4

noncomputable section

namespace Cert.RefValue

open Cert.ReferenceIdeal Cert.ReferenceIdeal.Gen Cert.ReferenceIdeal.Read Idealize.ShloMosaic Idealize.ShloMosaic.ValueIdx

/-- THE REFERENCE IS THE SPECIFICATION: its last array is `G` of its five arguments. -/
theorem ref_eq (x0 : (⟨S8x32x32x768, .f32⟩ : BufTy).Contents (Elt Ideal)) (x1 : (⟨S2304x768, .f32⟩ : BufTy).Contents (Elt Ideal))
    (x2 : (⟨S2304, .f32⟩ : BufTy).Contents (Elt Ideal))
    (x3 : (⟨S768x768, .f32⟩ : BufTy).Contents (Elt Ideal)) (x4 : (⟨S768, .f32⟩ : BufTy).Contents (Elt Ideal)) :
    val_main_v34 (F := Ideal) x0 x1 x2 x3 x4 = Cert.Spec.G x0 x1 x2 x3 x4 := by
  funext i
  obtain ⟨b, h, w, c, rfl⟩ : ∃ (b : Fin 8) (h w : Fin 32) (c : Fin 768), i = ix4 b h w c := ⟨i 0, i 1, i 2, i 3, eq_ix4 i⟩
  have eb : idx_main_v32 (idx_main_v33 (ix4 b h w c)) = ix1 c :=
    funext fun a => by
      match a with
      | ⟨0, _⟩ => rfl
  rw [val_main_v34_apply, val_main_v33_apply, val_main_v32_apply, eb, Ideal.addf_def, proj_at]
  rfl

end Cert.RefValue

end
-- ==== Proof.lean ====
/-
  Multi-head self-attention in three kernels against its plain reference: the two programs compute one function.

  The kernel program projects the flat tokens to queries, keys and values with one matrix-product kernel, runs softmax
  attention two heads at a time in a second kernel that reads the projected matrix through three windows (the query, key
  and value column blocks of the same array) and writes the heads' outputs side by side, and projects back with a third
  kernel. The reference does the same with whole-array operations: a product with the transposed weights plus bias,
  a reshape and transpose to heads, scores scaled by one eighth, a row maximum, exponentials, a row sum, a quotient, a
  product with the values, the inverse reshape, and the output projection.

  Over the extended reals both are the function `Cert.Spec.G` of the five arguments: a matrix product is the same finite
  sum however it is tiled or accumulated; a change of float format is the identity; the kernel's row maximum starts from
  minus infinity and the reference takes the maximum of minus infinity and its own row maximum, which is that maximum;
  exponential, quotient and the scale one eighth are the same operations and the same float word on both sides; and the
  kernel's column blocks are exactly the reference's heads (queries at column `n · 64`, keys at `768 + n · 64`, values at
  `1536 + n · 64` of the projected matrix, outputs back at `n · 64`). No law used needs the inputs finite.

  The three frames: each kernel program's run (at the word level and over the extended reals, one text read at both)
  goes through its six items — host operations, the three kernels, host operations — with every buffer's contents
  followed from launch to return; the reference's is its run with the result dropped. The kernel's idealization rewrote
  no operation, so there is nothing to preserve.
-/
import proofs.«178434_j73461120630936_2_alg».proof.Defs
import proofs.«178434_j73461120630936_2_alg».proof.Proof.Gen.Kernel
import proofs.«178434_j73461120630936_2_alg».proof.Proof.Gen.KernelIdeal
import proofs.«178434_j73461120630936_2_alg».proof.Proof.Gen.ReferenceIdeal
import proofs.«178434_j73461120630936_2_alg».proof.Proof.Gen.Pre_finite_inputs
import proofs.«178434_j73461120630936_2_alg».proof.Proof.KFrame
import proofs.«178434_j73461120630936_2_alg».proof.Proof.KernelRun
import proofs.«178434_j73461120630936_2_alg».proof.Proof.Bridge
import proofs.«178434_j73461120630936_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_kernel : Cert.frame_Kernel := fun m ρ _ => Cert.Kernel.Fr.frame m ρ

/-- So does the kernel program read over the extended reals. -/
theorem frame_kernelIdeal : Cert.frame_KernelIdeal := fun m ρ _ => Cert.KernelIdeal.Fr.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and both result arrays are `Cert.Spec.G` of the
    arguments: the kernel's by following its three kernels' output arrays and reading each body's arithmetic at an index,
    the reference's by reading its operations one at a time. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.KV_eq _ _ _ _ _), (h c).2⟩)
      (Cert.KernelIdeal.Fr.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v34_eq, Cert.RefValue.ref_eq,
      (hagree c).1, (hagree c).2.1, (hagree c).2.2.1, (hagree c).2.2.2.1, (hagree c).2.2.2.2]

/-- Everything this certificate claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
